-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S1024x1024 : Shape := ⟨2, ![1024, 1024]⟩
abbrev S1024 : Shape := ⟨1, ![1024]⟩
abbrev S1024x1 : Shape := ⟨2, ![1024, 1]⟩
abbrev S8192x1 : Shape := ⟨2, ![8192, 1]⟩
abbrev S_ : Shape := ⟨0, ![]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_16 : BitVec 32 := 0#32
  let v35 : BitVec 1 := Scalar.cmpi .ne v34 c0_i32_16
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  iota_S1024x1024_d0_w32 : S1024x1024.Iotas .tc 32 [0]
  iota_S1024x1024_d1_w32 : S1024x1024.Iotas .tc 32 [1]
  reducesTo_S8192x1_S_d0_1 : S8192x1.ReducesTo [0, 1] S_
  h_S_ : 0 < S_.numel
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S8192x2 : Shape := ⟨2, ![8192, 2]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1024x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S8192x1, .i32⟩
  | .hbm, ⟨57, _⟩ => ⟨S8192x2, .i32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  concatenates_S8192x1_S8192x1_S8192x2_d1 : Shape.Concatenates [S8192x1, S8192x1] S8192x2 1
  reducesTo_S8192_S_d0 : S8192.ReducesTo [0] S_
  dot_S8192x1024_S1024x8192_S8192x8192_1_0_0_1_n_n_wf : DotDims.WF S8192x1024 S1024x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.KRegion0.lean ====
/-
  Region 0 (the row-normalising kernel, one 1024x1024 row tile per grid point): the frame half.
  The body reads its input tile whole, reads its output buffer whole (value unused) and stores the
  normalised tile whole; so after the body the output buffer holds the payload of the input block.
-/
import proofs.«170083_j38439957299344_2_alg».proof.Proof.Gen.Kernel.Launch
import proofs.«170083_j38439957299344_2_alg».proof.Proof.Gen.Kernel.Skeleton
import proofs.«170083_j38439957299344_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole-block rectangle of a 1024x1024 buffer. -/
abbrev r0_0 : Rect S1024x1024 := Rect.unit (s := S1024x1024) ![0, 0] S1024x1024.size inb_S1024x1024_S1024x1024_0_0

/-! ## What the body leaves in the output window's buffer -/

/-- Window 1's staging buffer after the body, from the input window's block: its one store as a piece. -/
def out0_1 (x0 : Vec F S1024x1024 .f32) : Vec F S1024x1024 .bf16 :=
  View.canon [⟨r0_0, k0_pay1 (View.ld x0 r0_0)⟩]

/-- The store tiles the buffer, so it covers it. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The kernel body on whole staging memrefs, the input's at read contents `x0` and the output's at anything, runs to
    the continuation holding the input's as it was and the output's at `out0_1 x0`. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__l2norm_kernel i arg1 harg1 arg2 harg2) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` the input's buffer at its block and the output's at `out0_1` of the input block; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRuns1.lean ====
/-
  Region 1 (the fused contrastive kernel on the 8 × 8 grid of query tile × key tile): what its three cases share.

  The body branches on the key-tile coordinate only. At key tile 0 it first zeroes the two accumulator columns and
  stores the unit-scaled query tile; at every key tile it adds one tile's row sums into the accumulators; at key tile 7
  it finally stores the output block. So a point is in one of three cases: first (key tile 0), middle (1 … 6), last (7).
  The output window is written only in the last case: elsewhere it is idle and not written back.
-/
import proofs.«170083_j38439957299344_2_alg».proof.Proof.Gen.Kernel.Launch
import proofs.«170083_j38439957299344_2_alg».proof.Proof.Gen.Kernel.Skeleton
import proofs.«170083_j38439957299344_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, in closed form over the grid -/

/-- The first branch's condition (key tile = 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The last branch's condition (key tile = 7). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from key tile 7 the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At key tile 7 it is live. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S1024x1 .f32 := (Memref.whole cc1_stg2_0 : Memref sig .tc .vmem S1024x1 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The three scratch operands: the two accumulator columns and the unit-scaled query tile. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .bf16 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .bf16 := scM1_2.view

/-- The scoped buffers of the core that are neither a staging buffer of this region nor its scratch: the other
    region's staging buffers, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The class invariant with the scratch operands as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.KRun1A.lean ====
/-
  Region 1, the whole-body run in the first (key tile 0) case: on whole staging and scratch memrefs the body runs to the end, and what
  each buffer it stores into ends with is recorded as the list of stored pieces the run finds.
-/
import proofs.«170083_j38439957299344_2_alg».proof.Proof.KRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Key tile 0: the scratch buffers start at anything and end with the pieces stored; the output buffer is untouched. -/
noncomputable def kernelRun1_A (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) :
    Σ' (LS0 : List (View.Piece (Elt F) S1024x1 .f32)), Σ' (LS1 : List (View.Piece (Elt F) S1024x1 .f32)), { LS2 : List (View.Piece (Elt F) S1024x1024 .bf16) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1__fused_contrastive_kernel i arg2 harg2 arg3 harg3 arg4 harg4 arg5 harg5 arg6 harg6 arg7 harg7) K } := by
  refine ⟨?_, ?_, ?_, fun xi2 E K => ?run⟩
  case run =>
    simp only [cc1__fused_contrastive_kernel_eq_skeleton]; unfold cc1__fused_contrastive_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Hand

end
-- ==== Proof.KRun1B.lean ====
/-
  Region 1, the whole-body run in the middle (key tiles 1 to 6) case: on whole staging and scratch memrefs the body runs to the end, and what
  each buffer it stores into ends with is recorded as the list of stored pieces the run finds.
-/
import proofs.«170083_j38439957299344_2_alg».proof.Proof.KRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Key tiles 1 to 6: the accumulator columns go from what the point before left to the pieces stored; the unit-scaled
    query tile is read and kept; the output buffer is untouched. -/
noncomputable def kernelRun1_B (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) :
    Σ' (LS0 : List (View.Piece (Elt F) S1024x1 .f32)), { LS1 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ owns (c : Thread nD τ) arg7 fullShare xs2) -∗ K ⟨⟩))
          ⊢ wp frame (wpE (defs₀ (F := F)) Variants.none c none) E (cc1__fused_contrastive_kernel i arg2 harg2 arg3 harg3 arg4 harg4 arg5 harg5 arg6 harg6 arg7 harg7) K } := by
  refine ⟨?_, ?_, fun xi2 E K => ?run⟩
  case run =>
    simp only [cc1__fused_contrastive_kernel_eq_skeleton]; unfold cc1__fused_contrastive_kernel_skel
    simp only [k1_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; isplitr; · ipureintro; exact harg7.read_unread _
    iexact HS2

end Cert.Kernel.Hand

end
-- ==== Proof.KRun1C.lean ====
/-
  Region 1, the whole-body run in the last (key tile 7) case: on whole staging and scratch memrefs the body runs to the end, and what
  each buffer it stores into ends with is recorded as the list of stored pieces the run finds.
-/
import proofs.«170083_j38439957299344_2_alg».proof.Proof.KRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Key tile 7: as in the middle case, and then the output buffer, at anything before, ends with the piece stored. -/
noncomputable def kernelRun1_C (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) :
    Σ' (L2 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ owns (c : Thread nD τ) arg7 fullShare xs2) -∗ K ⟨⟩))
          ⊢ wp frame (wpE (defs₀ (F := F)) Variants.none c none) E (cc1__fused_contrastive_kernel i arg2 harg2 arg3 harg3 arg4 harg4 arg5 harg5 arg6 harg6 arg7 harg7) K } := by
  refine ⟨?_, ?_, ?_, fun E K => ?run⟩
  case run =>
    simp only [cc1__fused_contrastive_kernel_eq_skeleton]; unfold cc1__fused_contrastive_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; isplitr; · ipureintro; exact harg7.read_unread _
    iexact HS2

end Cert.Kernel.Hand

end
-- ==== Proof.KRegion1.lean ====
/-
  Region 1 (the fused contrastive kernel), the frame half: what the scratch buffers and the output block hold after
  every grid point, the proof data over them, and the body obligation.

  The grid runs over (query tile, key tile), key tile fastest; point n has key tile n mod 8. The three scratch buffers
  — the accumulator columns l and diag and the unit-scaled query tile — are carried from point to point: the first
  case (key tile 0) overwrites all three whatever they held, the middle and last cases update the two columns from
  what the point before left and keep the tile. The output block is stored in the last case only.
-/
import proofs.«170083_j38439957299344_2_alg».proof.Proof.KRun1A
import proofs.«170083_j38439957299344_2_alg».proof.Proof.KRun1B
import proofs.«170083_j38439957299344_2_alg».proof.Proof.KRun1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its stored pieces read back -/

/-- First case: the pieces stored into the first accumulator column tile it, and what they leave. -/
theorem scover_sA0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) (y : S1024x1.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S1024x1.size (by sl_kernel_rfl) y

def sA0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 hc0 hc1 x0 x1).1)

/-- First case: the second accumulator column. -/
theorem scover_sA1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) (y : S1024x1.Idx) :
    ∃ pc ∈ (kernelRun1_A c i arg2 harg2 arg3 harg3 arg4 harg4 arg5 harg5 arg6 harg6 arg7 harg7 hc0 hc1 x0 x1).2.1, y ∈ pc.1.set :=
  View.cover_of_tiledL (kernelRun1_A c i arg2 harg2 arg3 harg3 arg4 harg4 arg5 harg5 arg6 harg6 arg7 harg7 hc0 hc1 x0 x1).2.1 S1024x1.size (by sl_kernel_rfl) y

def sA1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 hc0 hc1 x0 x1).2.1)

/-- First case: the unit-scaled query tile. -/
theorem scover_sA2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) (y : S1024x1024.Idx) :
    ∃ pc ∈ (kernelRun1_A c i arg2 harg2 arg3 harg3 arg4 harg4 arg5 harg5 arg6 harg6 arg7 harg7 hc0 hc1 x0 x1).2.2.1, y ∈ pc.1.set :=
  View.cover_of_tiledL (kernelRun1_A c i arg2 harg2 arg3 harg3 arg4 harg4 arg5 harg5 arg6 harg6 arg7 harg7 hc0 hc1 x0 x1).2.2.1 S1024x1024.size (by sl_kernel_rfl) y

def sA2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) : Vec F S1024x1024 .bf16 :=
  VS1_2.read (Elt F) (VS1_2.writes (Elt F) VS1_2.junk (kernelRun1_A c i arg2 harg2 arg3 harg3 arg4 harg4 arg5 harg5 arg6 harg6 arg7 harg7 hc0 hc1 x0 x1).2.2.1)

/-- Middle case: the first accumulator column. -/
theorem scover_sB0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) (y : S1024x1.Idx) :
    ∃ pc ∈ (kernelRun1_B c i arg2 harg2 arg3 harg3 arg4 harg4 arg5 harg5 arg6 harg6 arg7 harg7 hc0 hc1 x0 x1 xs0 xs1 xs2).1, y ∈ pc.1.set :=
  View.cover_of_tiledL (kernelRun1_B c i arg2 harg2 arg3 harg3 arg4 harg4 arg5 harg5 arg6 harg6 arg7 harg7 hc0 hc1 x0 x1 xs0 xs1 xs2).1 S1024x1.size (by sl_kernel_rfl) y

def sB0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) : Vec F S1024x1 .f32 :=
  VS1_0.read (Elt F) (VS1_0.writes (Elt F) VS1_0.junk (kernelRun1_B c i arg2 harg2 arg3 harg3 arg4 harg4 arg5 harg5 arg6 harg6 arg7 harg7 hc0 hc1 x0 x1 xs0 xs1 xs2).1)

/-- Middle case: the second accumulator column. -/
theorem scover_sB1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) (y : S1024x1.Idx) :
    ∃ pc ∈ (kernelRun1_B c i arg2 harg2 arg3 harg3 arg4 harg4 arg5 harg5 arg6 harg6 arg7 harg7 hc0 hc1 x0 x1 xs0 xs1 xs2).2.1, y ∈ pc.1.set :=
  View.cover_of_tiledL (kernelRun1_B c i arg2 harg2 arg3 harg3 arg4 harg4 arg5 harg5 arg6 harg6 arg7 harg7 hc0 hc1 x0 x1 xs0 xs1 xs2).2.1 S1024x1.size (by sl_kernel_rfl) y

def sB1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) : Vec F S1024x1 .f32 :=
  VS1_1.read (Elt F) (VS1_1.writes (Elt F) VS1_1.junk (kernelRun1_B c i arg2 harg2 arg3 harg3 arg4 harg4 arg5 harg5 arg6 harg6 arg7 harg7 hc0 hc1 x0 x1 xs0 xs1 xs2).2.1)

/-- Last case: the output block. -/
theorem scover_oC2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) (y : S1024x1.Idx) :
    ∃ pc ∈ (kernelRun1_C c i arg2 harg2 arg3 harg3 arg4 harg4 arg5 harg5 arg6 harg6 arg7 harg7 hc0 hc1 x0 x1 xs0 xs1 xs2).1, y ∈ pc.1.set :=
  View.cover_of_tiledL (kernelRun1_C c i arg2 harg2 arg3 harg3 arg4 harg4 arg5 harg5 arg6 harg6 arg7 harg7 hc0 hc1 x0 x1 xs0 xs1 xs2).1 S1024x1.size (by sl_kernel_rfl) y

def oC2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) : Vec F S1024x1 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1 xs2).1)

/-- Last case: the first accumulator column. -/
theorem scover_sC0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) (y : S1024x1.Idx) :
    ∃ pc ∈ (kernelRun1_C c i arg2 harg2 arg3 harg3 arg4 harg4 arg5 harg5 arg6 harg6 arg7 harg7 hc0 hc1 x0 x1 xs0 xs1 xs2).2.1, y ∈ pc.1.set :=
  View.cover_of_tiledL (kernelRun1_C c i arg2 harg2 arg3 harg3 arg4 harg4 arg5 harg5 arg6 harg6 arg7 harg7 hc0 hc1 x0 x1 xs0 xs1 xs2).2.1 S1024x1.size (by sl_kernel_rfl) y

def sC0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) : Vec F S1024x1 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1 xs2).2.1)

/-- Last case: the second accumulator column. -/
theorem scover_sC1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) (y : S1024x1.Idx) :
    ∃ pc ∈ (kernelRun1_C c i arg2 harg2 arg3 harg3 arg4 harg4 arg5 harg5 arg6 harg6 arg7 harg7 hc0 hc1 x0 x1 xs0 xs1 xs2).2.2.1, y ∈ pc.1.set :=
  View.cover_of_tiledL (kernelRun1_C c i arg2 harg2 arg3 harg3 arg4 harg4 arg5 harg5 arg6 harg6 arg7 harg7 hc0 hc1 x0 x1 xs0 xs1 xs2).2.2.1 S1024x1.size (by sl_kernel_rfl) y

def sC1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) : Vec F S1024x1 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1 xs2).2.2.1)

/-! ## What the buffers hold after each point -/

/-- The output block where the case does not store it: a placeholder nothing consults (the window is idle there). -/
def idleOut : Vec F S1024x1 .f32 := VO1_2.read (Elt F) VO1_2.junk

/-- After a point of the first case: the three scratch buffers at what the case stored. -/
def stA (c : Dev nD) (t : Fin cfg1.N) (h0 : t.val % 8 = 0) (h1 : ¬t.val % 8 = 7) : Vec F S1024x1 .f32 × Vec F S1024x1 .f32 × Vec F S1024x1 .f32 × Vec F S1024x1024 .bf16 :=
  (idleOut, sA0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t),
    sA1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t),
    sA2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t))

/-- After a point of the middle case, over what the point before left (`p`). -/
def stB (c : Dev nD) (t : Fin cfg1.N) (h0 : ¬t.val % 8 = 0) (h1 : ¬t.val % 8 = 7) (p : Vec F S1024x1 .f32 × Vec F S1024x1 .f32 × Vec F S1024x1 .f32 × Vec F S1024x1024 .bf16) : Vec F S1024x1 .f32 × Vec F S1024x1 .f32 × Vec F S1024x1 .f32 × Vec F S1024x1024 .bf16 :=
  (idleOut, sB0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) p.2.1 p.2.2.1 p.2.2.2,
    sB1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) p.2.1 p.2.2.1 p.2.2.2,
    p.2.2.2)

/-- After a point of the last case, over what the point before left. -/
def stC (c : Dev nD) (t : Fin cfg1.N) (h0 : ¬t.val % 8 = 0) (h1 : t.val % 8 = 7) (p : Vec F S1024x1 .f32 × Vec F S1024x1 .f32 × Vec F S1024x1 .f32 × Vec F S1024x1024 .bf16) : Vec F S1024x1 .f32 × Vec F S1024x1 .f32 × Vec F S1024x1 .f32 × Vec F S1024x1024 .bf16 :=
  (oC2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) p.2.1 p.2.2.1 p.2.2.2,
    sC0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) p.2.1 p.2.2.1 p.2.2.2,
    sC1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) p.2.1 p.2.2.1 p.2.2.2,
    p.2.2.2)

/-- THE ACCUMULATION: the output block and the three scratch buffers after the body at position `n`. -/
def outsAt1 (c : Dev nD) : (n : ℕ) → n < cfg1.N → Vec F S1024x1 .f32 × Vec F S1024x1 .f32 × Vec F S1024x1 .f32 × Vec F S1024x1024 .bf16
  | 0, hn => stA V c ⟨0, hn⟩ (Nat.zero_mod _) (by show ¬(0 : ℕ) % 8 = 7; decide)
  | n + 1, hn =>
    if h0 : (n + 1) % 8 = 0 then
      if h1 : (n + 1) % 8 = 7 then False.elim (by omega)
      else stA V c ⟨n + 1, hn⟩ h0 h1
    else
      if h1 : (n + 1) % 8 = 7 then stC V c ⟨n + 1, hn⟩ h0 h1 (outsAt1 c n (Nat.lt_of_succ_lt hn))
      else stB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = stA V c t h0 h1 := by
  obtain ⟨n, hn⟩ := t
  cases n with
  | zero => rfl
  | succ n => exact (dif_pos h0).trans (dif_neg h1)

theorem outsAt1_B (c : Dev nD) (t : Fin cfg1.N) (h0 : ¬t.val % 8 = 0) (h1 : ¬t.val % 8 = 7) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 8 = 0) (h1 : t.val % 8 = 7) :
    outsAt1 V c t.val t.isLt = stC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The region invariant before position `n`: before the first point every scratch at anything; afterwards the other
    region's staging buffers at anything, each scratch buffer at what the point before left, the generator register. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
      ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

/-- The proof data of region 1 on core `c`: the arrays as the region finds them; after the body at point `t` each
    input's buffer at its block and the output's at the accumulation's first component; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's key tile says which case it is in; the
    invariant hands the body the scratch buffers at what the point before left (at anything before the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · by_cases h1 : t.val % 8 = 7
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold stA sA0 sA1 sA2; (try dsimp only)
      by_cases hz : t.val = 0
      · rw [PhiS_castSucc V c t, PhiS_zero V c _ _ hz, PhiA1_eq]
        iintro ⟨⟨⟨HA, HB, HC, HD, HS0, HS1, HS2⟩, Hg⟩, Ho, ⟨%d0, H0⟩, ⟨%d1, H1⟩, ⟨%d2, H2⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HA HB HC HD HS0 HS1 HS2 Hg]
        · isplitr [Hg]
          · isplitl [HA]; · iexact HA
            isplitl [HB]; · iexact HB
            isplitl [HC]; · iexact HC
            isplitl [HD]; · iexact HD
            isplitl [HS0]
            · unfold owns; iexists _; isplitr
              swap; · iexact HS0
              ipureintro; exact View.read_writes_of_cover _ _ _ _ _ (scover_sA0 c _ _ _ _ _ _ _ _ _ _ _ _ _ _ _ _ _)
            isplitl [HS1]
            · unfold owns; iexists _; isplitr
              swap; · iexact HS1
              ipureintro; exact View.read_writes_of_cover _ _ _ _ _ (scover_sA1 c _ _ _ _ _ _ _ _ _ _ _ _ _ _ _ _ _)
            unfold owns; iexists _; isplitr
            swap; · iexact HS2
            ipureintro; exact View.read_writes_of_cover _ _ _ _ _ (scover_sA2 c _ _ _ _ _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨HA, HB, HC, HD, HS0, HS1, HS2⟩, Hg⟩, Ho, ⟨%d0, H0⟩, ⟨%d1, H1⟩, ⟨%d2, H2⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HA HB HC HD HS0 HS1 HS2 Hg]
        · isplitr [Hg]
          · isplitl [HA]; · iexact HA
            isplitl [HB]; · iexact HB
            isplitl [HC]; · iexact HC
            isplitl [HD]; · iexact HD
            isplitl [HS0]
            · unfold owns; iexists _; isplitr
              swap; · iexact HS0
              ipureintro; exact View.read_writes_of_cover _ _ _ _ _ (scover_sA0 c _ _ _ _ _ _ _ _ _ _ _ _ _ _ _ _ _)
            isplitl [HS1]
            · unfold owns; iexists _; isplitr
              swap; · iexact HS1
              ipureintro; exact View.read_writes_of_cover _ _ _ _ _ (scover_sA1 c _ _ _ _ _ _ _ _ _ _ _ _ _ _ _ _ _)
            unfold owns; iexists _; isplitr
            swap; · iexact HS2
            ipureintro; exact View.read_writes_of_cover _ _ _ _ _ (scover_sA2 c _ _ _ _ _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold stC oC2 sC0 sC1; (try dsimp only)
      rw [PhiS_castSucc V c t, PhiS_pos V c _ _ hz]
      iintro ⟨⟨⟨HA, HB, HC, HD, HS0, HS1, HS2⟩, Hg⟩, Ho, ⟨%d0, H0⟩, ⟨%d1, H1⟩, ⟨%d2, H2⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _ _).2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, HS2⟩
      isplitl [HA HB HC HD HS0 HS1 HS2 Hg]
      · isplitr [Hg]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (scover_sC0 c _ _ _ _ _ _ _ _ _ _ _ _ _ _ _ _ _ _ _ _)
          isplitl [HS1]
          · unfold owns; iexists _; isplitr
            swap; · iexact HS1
            ipureintro; exact View.read_writes_of_cover _ _ _ _ _ (scover_sC1 c _ _ _ _ _ _ _ _ _ _ _ _ _ _ _ _ _ _ _ _)
          iexact HS2
        iexact Hg
      isplitl [Ho]; · iexact Ho
      isplitl [H0]; · iexact H0
      isplitl [H1]; · iexact H1
      unfold owns; iexists _; isplitr
      swap; · iexact H2
      ipureintro; exact View.read_writes_of_cover _ _ _ _ _ (scover_oC2 c _ _ _ _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold stB sB0 sB1; (try dsimp only)
      rw [PhiS_castSucc V c t, PhiS_pos V c _ _ hz]
      iintro ⟨⟨⟨HA, HB, HC, HD, HS0, HS1, HS2⟩, Hg⟩, Ho, ⟨%d0, H0⟩, ⟨%d1, H1⟩, ⟨%d2, H2⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _ _).2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, HS2⟩
      isplitl [HA HB HC HD HS0 HS1 HS2 Hg]
      · isplitr [Hg]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (scover_sB0 c _ _ _ _ _ _ _ _ _ _ _ _ _ _ _ _ _ _ _ _)
          isplitl [HS1]
          · unfold owns; iexists _; isplitr
            swap; · iexact HS1
            ipureintro; exact View.read_writes_of_cover _ _ _ _ _ (scover_sB1 c _ _ _ _ _ _ _ _ _ _ _ _ _ _ _ _ _ _ _ _)
          iexact HS2
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  iintro ⟨⟨HA, HB, HC, HD, HS0, HS1, HS2⟩, Hg⟩
  isplitr [Hg]
  · isplitl [HA]; · iexact HA
    isplitl [HB]; · iexact HB
    isplitl [HC]; · iexact HC
    isplitl [HD]; · iexact HD
    isplitl [HS0]; · iexists _; iexact HS0
    isplitl [HS1]; · iexists _; iexact HS1
    iexists _; iexact HS2
  iexact Hg

theorem hout1 (c : Dev nD) : (dat1 V c).Φ (Fin.last cfg1.N) ⊢ (Pipeline.ΦA spec1 c : sProp 𝕄) :=
  Phi_out1 V c _ (by rw [Fin.val_last]; have : cfg1.N = 64 := N_1; omega)

end Cert.Kernel.Hand

end
-- ==== Proof.KRun.lean ====
/-
  The whole run of @main: region 0, region 1, then the host stretch of four operations. The buffer contents at
  each segment boundary are folded from the launch memory; each argument array is read back through the fold
  to its launch contents; the three segments chain over the thread state "every unscoped buffer at the
  boundary's contents, the generator register at some state, nothing owed".
-/
import proofs.«170083_j38439957299344_2_alg».proof.Proof.KRegion0
import proofs.«170083_j38439957299344_2_alg».proof.Proof.KRegion1
import proofs.«170083_j38439957299344_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch (region 0's entry). -/
abbrev W0 : Dev nD → Valuation τ sig (Elt F) := fun c b => (s₀ m ρ).mem ((c : Dev nD), b)
/-- The same read at the TensorCore's references (what region 0's proof data take). -/
abbrev V0r : (c : Dev nD) → (b : Ref sig .tc) → Buf (Elt F) ((c : Thread nD τ).loc b) := fun c b => W0 m ρ c b
/-- At region 0's exit: its arrays at what the pipeline leaves (the input as entered, the output's write-backs
    folded), every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents, region 1's entry). -/
abbrev V1r : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V1r m ρ) c).arrAt w cfg1.N
theorem W2_arr (c : Dev nD) (w : Fin cfg1.W) :
    W2 m ρ c (Proc.devRef .tc (Pipeline.arrRef spec1 w)) = (dat1 (V1r m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references (region 1's exit contents). -/
abbrev V2r : (c : Dev nD) → (b : Ref sig .tc) → Buf (Elt F) ((c : Thread nD τ).loc b) := fun c b => W2 m ρ c b
theorem hF1 (c : Dev nD) (w : Fin cfg1.W) : (dat1 (V1r m ρ) c).arrAt w cfg1.N = V2r m ρ c (Pipeline.arrRef spec1 w) :=
  (W2_arr m ρ c w).symm
theorem hrest1 (c : Dev nD) : ∀ b, b ∉ Finset.univ.image (Pipeline.arrRef spec1) → V2r m ρ c b = V1r m ρ c b :=
  fun b hb => W2_of_ne m ρ c b fun w e => hb (Finset.mem_image.mpr ⟨w, Finset.mem_univ _, e⟩)

/-- After the host stretch (the last boundary). -/
abbrev W3 : Dev nD → Valuation τ sig (Elt F) := fun c => StableHlo.after hostOps2 (W2 m ρ c)

/-! ### The arguments end as launched: the host stretch writes neither; a region reads one through an input
    window and bypasses the other -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide)
    _ = W1 m ρ c (Proc.devRef .tc main_arg0) := (W2_arr m ρ c 0).trans (((dat1 (V1r m ρ) c).arrAt_in 0 rfl _).trans (A_eq1 (V1r m ρ) c 0))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide)
    _ = W1 m ρ c (Proc.devRef .tc main_arg1) := W2_of_ne m ρ c main_arg1 (by decide)
    _ = W0 m ρ c (Proc.devRef .tc main_arg1) := (W1_arr m ρ c 0).trans (((dat0 (V0r m ρ) c).arrAt_in 0 rfl _).trans (A_eq0 (V0r m ρ) c 0))
    _ = m ((c : Thread nD τ).loc main_arg1) := rfl

/-! ## The proof data family and the thread state -/

/-- Every pipeline's proof data, each at its region's entry contents — a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V1r m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W0`, left at `W1`. Its arrays split
    out of the unscoped buffers and put back at the exit contents; the generator register into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. Its invariant at the
    first point is made from the scoped rest and the generator register (`hin1`) and gives them back at the last
    (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1r m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1r m ρ c) (fun w => A_eq1 (V1r m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1r m ρ) c)
    unfold Pipeline.ΦA
    iintro ⟨Hp, -, Hr⟩
    isplitl [Hr]; · iexact Hr
    iexact Hp
  hout c := by
    rw [Pipeline.ownSems0_none]
    refine BIBase.Entails.trans (hout1 (V1r m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1r m ρ c) (V2r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The host stretch as a segment, entered from region 1's exit contents. -/
abbrev hseg2 : Pipeline.HostSeg (Name := ℕ) (U := UR sig nD τ) (pcfgs (F := F)) defs₀ 𝒱₀ L lv :=
  hseg hostOps2 hostOps2_sub hostOps2_fresh (W2 m ρ)

/-- @main's 3 segments in order: the two regions, then the host stretch. -/
abbrev segs : List (Pipeline.Seg (pcfgs (F := F)) adm (pdats m ρ) () defs₀ 𝒱₀ L lv) :=
  [ .region (reg0 m ρ),
    .region (reg1 m ρ),
    .host (hseg2 m ρ) ]
/-- @main is the run of the segments. -/
theorem main_run (c : Dev nD) : main (F := F) c = Pipeline.Seg.run (segs m ρ) :=
  main_segs adm (pdats m ρ) () 𝒱₀ L lv (hseg2 m ρ) (reg0 m ρ) (reg1 m ρ) rfl c

set_option backward.isDefEq.respectTransparency.types false in
/-- THE RUN: at the compiled mesh, from any memory with zero counters, every weakly fair execution of @main on the
    TensorCores terminates, nothing faulting, and every final state holds every unscoped buffer at the last
    boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every final state has the argument arrays as launched — each read off the last boundary's contents
    (`run_all`) and walked back through the fold (`W3_main_arg0`, `W3_main_arg1`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs (onTc (τ := τ) (main (F := F))) ⟨m, fun _ => 0, ρ⟩).mono (fun r h c =>
    ⟨(h c _ (mem_uc main_arg0 (by decide))).trans (W3_main_arg0 m ρ c),
     (h c _ (mem_uc main_arg1 (by decide))).trans (W3_main_arg1 m ρ c)⟩) (run_all m ρ)

end Cert.Kernel.Hand

end
-- ==== Proof.KIRegion0.lean ====
/-
  Region 0 (the row-normalising kernel, one 1024x1024 row tile per grid point): the frame half.
  The body reads its input tile whole, reads its output buffer whole (value unused) and stores the
  normalised tile whole; so after the body the output buffer holds the payload of the input block.
-/
import proofs.«170083_j38439957299344_2_alg».proof.Proof.Gen.KernelIdeal.Launch
import proofs.«170083_j38439957299344_2_alg».proof.Proof.Gen.KernelIdeal.Skeleton
import proofs.«170083_j38439957299344_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole-block rectangle of a 1024x1024 buffer. -/
abbrev r0_0 : Rect S1024x1024 := Rect.unit (s := S1024x1024) ![0, 0] S1024x1024.size inb_S1024x1024_S1024x1024_0_0

/-! ## What the body leaves in the output window's buffer -/

/-- Window 1's staging buffer after the body, from the input window's block: its one store as a piece. -/
def out0_1 (x0 : Vec F S1024x1024 .f32) : Vec F S1024x1024 .bf16 :=
  View.canon [⟨r0_0, k0_pay1 (View.ld x0 r0_0)⟩]

/-- The store tiles the buffer, so it covers it. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The kernel body on whole staging memrefs, the input's at read contents `x0` and the output's at anything, runs to
    the continuation holding the input's as it was and the output's at `out0_1 x0`. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__l2norm_kernel i arg1 harg1 arg2 harg2) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` the input's buffer at its block and the output's at `out0_1` of the input block; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRuns1.lean ====
/-
  Region 1 (the fused contrastive kernel on the 8 × 8 grid of query tile × key tile): what its three cases share.

  The body branches on the key-tile coordinate only. At key tile 0 it first zeroes the two accumulator columns and
  stores the unit-scaled query tile; at every key tile it adds one tile's row sums into the accumulators; at key tile 7
  it finally stores the output block. So a point is in one of three cases: first (key tile 0), middle (1 … 6), last (7).
  The output window is written only in the last case: elsewhere it is idle and not written back.
-/
import proofs.«170083_j38439957299344_2_alg».proof.Proof.Gen.KernelIdeal.Launch
import proofs.«170083_j38439957299344_2_alg».proof.Proof.Gen.KernelIdeal.Skeleton
import proofs.«170083_j38439957299344_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, in closed form over the grid -/

/-- The first branch's condition (key tile = 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The last branch's condition (key tile = 7). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from key tile 7 the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At key tile 7 it is live. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S1024x1 .f32 := (Memref.whole cc1_stg2_0 : Memref sig .tc .vmem S1024x1 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The three scratch operands: the two accumulator columns and the unit-scaled query tile. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .bf16 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .bf16 := scM1_2.view

/-- The scoped buffers of the core that are neither a staging buffer of this region nor its scratch: the other
    region's staging buffers, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The class invariant with the scratch operands as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KIRun1A.lean ====
/-
  Region 1, the whole-body run in the first (key tile 0) case: on whole staging and scratch memrefs the body runs to the end, and what
  each buffer it stores into ends with is recorded as the list of stored pieces the run finds.
-/
import proofs.«170083_j38439957299344_2_alg».proof.Proof.KIRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Key tile 0: the scratch buffers start at anything and end with the pieces stored; the output buffer is untouched. -/
noncomputable def kernelRun1_A (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) :
    Σ' (LS0 : List (View.Piece (Elt F) S1024x1 .f32)), Σ' (LS1 : List (View.Piece (Elt F) S1024x1 .f32)), { LS2 : List (View.Piece (Elt F) S1024x1024 .bf16) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1__fused_contrastive_kernel i arg2 harg2 arg3 harg3 arg4 harg4 arg5 harg5 arg6 harg6 arg7 harg7) K } := by
  refine ⟨?_, ?_, ?_, fun xi2 E K => ?run⟩
  case run =>
    simp only [cc1__fused_contrastive_kernel_eq_skeleton]; unfold cc1__fused_contrastive_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KIRun1B.lean ====
/-
  Region 1, the whole-body run in the middle (key tiles 1 to 6) case: on whole staging and scratch memrefs the body runs to the end, and what
  each buffer it stores into ends with is recorded as the list of stored pieces the run finds.
-/
import proofs.«170083_j38439957299344_2_alg».proof.Proof.KIRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Key tiles 1 to 6: the accumulator columns go from what the point before left to the pieces stored; the unit-scaled
    query tile is read and kept; the output buffer is untouched. -/
noncomputable def kernelRun1_B (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) :
    Σ' (LS0 : List (View.Piece (Elt F) S1024x1 .f32)), { LS1 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ owns (c : Thread nD τ) arg7 fullShare xs2) -∗ K ⟨⟩))
          ⊢ wp frame (wpE (defs₀ (F := F)) Variants.none c none) E (cc1__fused_contrastive_kernel i arg2 harg2 arg3 harg3 arg4 harg4 arg5 harg5 arg6 harg6 arg7 harg7) K } := by
  refine ⟨?_, ?_, fun xi2 E K => ?run⟩
  case run =>
    simp only [cc1__fused_contrastive_kernel_eq_skeleton]; unfold cc1__fused_contrastive_kernel_skel
    simp only [k1_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; isplitr; · ipureintro; exact harg7.read_unread _
    iexact HS2

end Cert.KernelIdeal.Hand

end
-- ==== Proof.KIRun1C.lean ====
/-
  Region 1, the whole-body run in the last (key tile 7) case: on whole staging and scratch memrefs the body runs to the end, and what
  each buffer it stores into ends with is recorded as the list of stored pieces the run finds.
-/
import proofs.«170083_j38439957299344_2_alg».proof.Proof.KIRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Key tile 7: as in the middle case, and then the output buffer, at anything before, ends with the piece stored. -/
noncomputable def kernelRun1_C (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) :
    Σ' (L2 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ owns (c : Thread nD τ) arg7 fullShare xs2) -∗ K ⟨⟩))
          ⊢ wp frame (wpE (defs₀ (F := F)) Variants.none c none) E (cc1__fused_contrastive_kernel i arg2 harg2 arg3 harg3 arg4 harg4 arg5 harg5 arg6 harg6 arg7 harg7) K } := by
  refine ⟨?_, ?_, ?_, fun E K => ?run⟩
  case run =>
    simp only [cc1__fused_contrastive_kernel_eq_skeleton]; unfold cc1__fused_contrastive_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; isplitr; · ipureintro; exact harg7.read_unread _
    iexact HS2

end Cert.KernelIdeal.Hand

end
-- ==== Proof.KIRegion1.lean ====
/-
  Region 1 (the fused contrastive kernel), the frame half: what the scratch buffers and the output block hold after
  every grid point, the proof data over them, and the body obligation.

  The grid runs over (query tile, key tile), key tile fastest; point n has key tile n mod 8. The three scratch buffers
  — the accumulator columns l and diag and the unit-scaled query tile — are carried from point to point: the first
  case (key tile 0) overwrites all three whatever they held, the middle and last cases update the two columns from
  what the point before left and keep the tile. The output block is stored in the last case only.
-/
import proofs.«170083_j38439957299344_2_alg».proof.Proof.KIRun1A
import proofs.«170083_j38439957299344_2_alg».proof.Proof.KIRun1B
import proofs.«170083_j38439957299344_2_alg».proof.Proof.KIRun1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its stored pieces read back -/

/-- First case: the pieces stored into the first accumulator column tile it, and what they leave. -/
theorem scover_sA0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) (y : S1024x1.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S1024x1.size (by sl_kernel_rfl) y

def sA0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 hc0 hc1 x0 x1).1)

/-- First case: the second accumulator column. -/
theorem scover_sA1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) (y : S1024x1.Idx) :
    ∃ pc ∈ (kernelRun1_A c i arg2 harg2 arg3 harg3 arg4 harg4 arg5 harg5 arg6 harg6 arg7 harg7 hc0 hc1 x0 x1).2.1, y ∈ pc.1.set :=
  View.cover_of_tiledL (kernelRun1_A c i arg2 harg2 arg3 harg3 arg4 harg4 arg5 harg5 arg6 harg6 arg7 harg7 hc0 hc1 x0 x1).2.1 S1024x1.size (by sl_kernel_rfl) y

def sA1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 hc0 hc1 x0 x1).2.1)

/-- First case: the unit-scaled query tile. -/
theorem scover_sA2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) (y : S1024x1024.Idx) :
    ∃ pc ∈ (kernelRun1_A c i arg2 harg2 arg3 harg3 arg4 harg4 arg5 harg5 arg6 harg6 arg7 harg7 hc0 hc1 x0 x1).2.2.1, y ∈ pc.1.set :=
  View.cover_of_tiledL (kernelRun1_A c i arg2 harg2 arg3 harg3 arg4 harg4 arg5 harg5 arg6 harg6 arg7 harg7 hc0 hc1 x0 x1).2.2.1 S1024x1024.size (by sl_kernel_rfl) y

def sA2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) : Vec F S1024x1024 .bf16 :=
  VS1_2.read (Elt F) (VS1_2.writes (Elt F) VS1_2.junk (kernelRun1_A c i arg2 harg2 arg3 harg3 arg4 harg4 arg5 harg5 arg6 harg6 arg7 harg7 hc0 hc1 x0 x1).2.2.1)

/-- Middle case: the first accumulator column. -/
theorem scover_sB0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) (y : S1024x1.Idx) :
    ∃ pc ∈ (kernelRun1_B c i arg2 harg2 arg3 harg3 arg4 harg4 arg5 harg5 arg6 harg6 arg7 harg7 hc0 hc1 x0 x1 xs0 xs1 xs2).1, y ∈ pc.1.set :=
  View.cover_of_tiledL (kernelRun1_B c i arg2 harg2 arg3 harg3 arg4 harg4 arg5 harg5 arg6 harg6 arg7 harg7 hc0 hc1 x0 x1 xs0 xs1 xs2).1 S1024x1.size (by sl_kernel_rfl) y

def sB0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) : Vec F S1024x1 .f32 :=
  VS1_0.read (Elt F) (VS1_0.writes (Elt F) VS1_0.junk (kernelRun1_B c i arg2 harg2 arg3 harg3 arg4 harg4 arg5 harg5 arg6 harg6 arg7 harg7 hc0 hc1 x0 x1 xs0 xs1 xs2).1)

/-- Middle case: the second accumulator column. -/
theorem scover_sB1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) (y : S1024x1.Idx) :
    ∃ pc ∈ (kernelRun1_B c i arg2 harg2 arg3 harg3 arg4 harg4 arg5 harg5 arg6 harg6 arg7 harg7 hc0 hc1 x0 x1 xs0 xs1 xs2).2.1, y ∈ pc.1.set :=
  View.cover_of_tiledL (kernelRun1_B c i arg2 harg2 arg3 harg3 arg4 harg4 arg5 harg5 arg6 harg6 arg7 harg7 hc0 hc1 x0 x1 xs0 xs1 xs2).2.1 S1024x1.size (by sl_kernel_rfl) y

def sB1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) : Vec F S1024x1 .f32 :=
  VS1_1.read (Elt F) (VS1_1.writes (Elt F) VS1_1.junk (kernelRun1_B c i arg2 harg2 arg3 harg3 arg4 harg4 arg5 harg5 arg6 harg6 arg7 harg7 hc0 hc1 x0 x1 xs0 xs1 xs2).2.1)

/-- Last case: the output block. -/
theorem scover_oC2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) (y : S1024x1.Idx) :
    ∃ pc ∈ (kernelRun1_C c i arg2 harg2 arg3 harg3 arg4 harg4 arg5 harg5 arg6 harg6 arg7 harg7 hc0 hc1 x0 x1 xs0 xs1 xs2).1, y ∈ pc.1.set :=
  View.cover_of_tiledL (kernelRun1_C c i arg2 harg2 arg3 harg3 arg4 harg4 arg5 harg5 arg6 harg6 arg7 harg7 hc0 hc1 x0 x1 xs0 xs1 xs2).1 S1024x1.size (by sl_kernel_rfl) y

def oC2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) : Vec F S1024x1 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1 xs2).1)

/-- Last case: the first accumulator column. -/
theorem scover_sC0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) (y : S1024x1.Idx) :
    ∃ pc ∈ (kernelRun1_C c i arg2 harg2 arg3 harg3 arg4 harg4 arg5 harg5 arg6 harg6 arg7 harg7 hc0 hc1 x0 x1 xs0 xs1 xs2).2.1, y ∈ pc.1.set :=
  View.cover_of_tiledL (kernelRun1_C c i arg2 harg2 arg3 harg3 arg4 harg4 arg5 harg5 arg6 harg6 arg7 harg7 hc0 hc1 x0 x1 xs0 xs1 xs2).2.1 S1024x1.size (by sl_kernel_rfl) y

def sC0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) : Vec F S1024x1 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1 xs2).2.1)

/-- Last case: the second accumulator column. -/
theorem scover_sC1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) (y : S1024x1.Idx) :
    ∃ pc ∈ (kernelRun1_C c i arg2 harg2 arg3 harg3 arg4 harg4 arg5 harg5 arg6 harg6 arg7 harg7 hc0 hc1 x0 x1 xs0 xs1 xs2).2.2.1, y ∈ pc.1.set :=
  View.cover_of_tiledL (kernelRun1_C c i arg2 harg2 arg3 harg3 arg4 harg4 arg5 harg5 arg6 harg6 arg7 harg7 hc0 hc1 x0 x1 xs0 xs1 xs2).2.2.1 S1024x1.size (by sl_kernel_rfl) y

def sC1 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) : Vec F S1024x1 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1 xs2).2.2.1)

/-! ## What the buffers hold after each point -/

/-- The output block where the case does not store it: a placeholder nothing consults (the window is idle there). -/
def idleOut : Vec F S1024x1 .f32 := VO1_2.read (Elt F) VO1_2.junk

/-- After a point of the first case: the three scratch buffers at what the case stored. -/
def stA (c : Dev nD) (t : Fin cfg1.N) (h0 : t.val % 8 = 0) (h1 : ¬t.val % 8 = 7) : Vec F S1024x1 .f32 × Vec F S1024x1 .f32 × Vec F S1024x1 .f32 × Vec F S1024x1024 .bf16 :=
  (idleOut, sA0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t),
    sA1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t),
    sA2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t))

/-- After a point of the middle case, over what the point before left (`p`). -/
def stB (c : Dev nD) (t : Fin cfg1.N) (h0 : ¬t.val % 8 = 0) (h1 : ¬t.val % 8 = 7) (p : Vec F S1024x1 .f32 × Vec F S1024x1 .f32 × Vec F S1024x1 .f32 × Vec F S1024x1024 .bf16) : Vec F S1024x1 .f32 × Vec F S1024x1 .f32 × Vec F S1024x1 .f32 × Vec F S1024x1024 .bf16 :=
  (idleOut, sB0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) p.2.1 p.2.2.1 p.2.2.2,
    sB1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) p.2.1 p.2.2.1 p.2.2.2,
    p.2.2.2)

/-- After a point of the last case, over what the point before left. -/
def stC (c : Dev nD) (t : Fin cfg1.N) (h0 : ¬t.val % 8 = 0) (h1 : t.val % 8 = 7) (p : Vec F S1024x1 .f32 × Vec F S1024x1 .f32 × Vec F S1024x1 .f32 × Vec F S1024x1024 .bf16) : Vec F S1024x1 .f32 × Vec F S1024x1 .f32 × Vec F S1024x1 .f32 × Vec F S1024x1024 .bf16 :=
  (oC2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) p.2.1 p.2.2.1 p.2.2.2,
    sC0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) p.2.1 p.2.2.1 p.2.2.2,
    sC1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) p.2.1 p.2.2.1 p.2.2.2,
    p.2.2.2)

/-- THE ACCUMULATION: the output block and the three scratch buffers after the body at position `n`. -/
def outsAt1 (c : Dev nD) : (n : ℕ) → n < cfg1.N → Vec F S1024x1 .f32 × Vec F S1024x1 .f32 × Vec F S1024x1 .f32 × Vec F S1024x1024 .bf16
  | 0, hn => stA V c ⟨0, hn⟩ (Nat.zero_mod _) (by show ¬(0 : ℕ) % 8 = 7; decide)
  | n + 1, hn =>
    if h0 : (n + 1) % 8 = 0 then
      if h1 : (n + 1) % 8 = 7 then False.elim (by omega)
      else stA V c ⟨n + 1, hn⟩ h0 h1
    else
      if h1 : (n + 1) % 8 = 7 then stC V c ⟨n + 1, hn⟩ h0 h1 (outsAt1 c n (Nat.lt_of_succ_lt hn))
      else stB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = stA V c t h0 h1 := by
  obtain ⟨n, hn⟩ := t
  cases n with
  | zero => rfl
  | succ n => exact (dif_pos h0).trans (dif_neg h1)

theorem outsAt1_B (c : Dev nD) (t : Fin cfg1.N) (h0 : ¬t.val % 8 = 0) (h1 : ¬t.val % 8 = 7) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 8 = 0) (h1 : t.val % 8 = 7) :
    outsAt1 V c t.val t.isLt = stC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The region invariant before position `n`: before the first point every scratch at anything; afterwards the other
    region's staging buffers at anything, each scratch buffer at what the point before left, the generator register. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
      ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

/-- The proof data of region 1 on core `c`: the arrays as the region finds them; after the body at point `t` each
    input's buffer at its block and the output's at the accumulation's first component; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's key tile says which case it is in; the
    invariant hands the body the scratch buffers at what the point before left (at anything before the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · by_cases h1 : t.val % 8 = 7
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold stA sA0 sA1 sA2; (try dsimp only)
      by_cases hz : t.val = 0
      · rw [PhiS_castSucc V c t, PhiS_zero V c _ _ hz, PhiA1_eq]
        iintro ⟨⟨⟨HA, HB, HC, HD, HS0, HS1, HS2⟩, Hg⟩, Ho, ⟨%d0, H0⟩, ⟨%d1, H1⟩, ⟨%d2, H2⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HA HB HC HD HS0 HS1 HS2 Hg]
        · isplitr [Hg]
          · isplitl [HA]; · iexact HA
            isplitl [HB]; · iexact HB
            isplitl [HC]; · iexact HC
            isplitl [HD]; · iexact HD
            isplitl [HS0]
            · unfold owns; iexists _; isplitr
              swap; · iexact HS0
              ipureintro; exact View.read_writes_of_cover _ _ _ _ _ (scover_sA0 c _ _ _ _ _ _ _ _ _ _ _ _ _ _ _ _ _)
            isplitl [HS1]
            · unfold owns; iexists _; isplitr
              swap; · iexact HS1
              ipureintro; exact View.read_writes_of_cover _ _ _ _ _ (scover_sA1 c _ _ _ _ _ _ _ _ _ _ _ _ _ _ _ _ _)
            unfold owns; iexists _; isplitr
            swap; · iexact HS2
            ipureintro; exact View.read_writes_of_cover _ _ _ _ _ (scover_sA2 c _ _ _ _ _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨HA, HB, HC, HD, HS0, HS1, HS2⟩, Hg⟩, Ho, ⟨%d0, H0⟩, ⟨%d1, H1⟩, ⟨%d2, H2⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HA HB HC HD HS0 HS1 HS2 Hg]
        · isplitr [Hg]
          · isplitl [HA]; · iexact HA
            isplitl [HB]; · iexact HB
            isplitl [HC]; · iexact HC
            isplitl [HD]; · iexact HD
            isplitl [HS0]
            · unfold owns; iexists _; isplitr
              swap; · iexact HS0
              ipureintro; exact View.read_writes_of_cover _ _ _ _ _ (scover_sA0 c _ _ _ _ _ _ _ _ _ _ _ _ _ _ _ _ _)
            isplitl [HS1]
            · unfold owns; iexists _; isplitr
              swap; · iexact HS1
              ipureintro; exact View.read_writes_of_cover _ _ _ _ _ (scover_sA1 c _ _ _ _ _ _ _ _ _ _ _ _ _ _ _ _ _)
            unfold owns; iexists _; isplitr
            swap; · iexact HS2
            ipureintro; exact View.read_writes_of_cover _ _ _ _ _ (scover_sA2 c _ _ _ _ _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold stC oC2 sC0 sC1; (try dsimp only)
      rw [PhiS_castSucc V c t, PhiS_pos V c _ _ hz]
      iintro ⟨⟨⟨HA, HB, HC, HD, HS0, HS1, HS2⟩, Hg⟩, Ho, ⟨%d0, H0⟩, ⟨%d1, H1⟩, ⟨%d2, H2⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _ _).2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, HS2⟩
      isplitl [HA HB HC HD HS0 HS1 HS2 Hg]
      · isplitr [Hg]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (scover_sC0 c _ _ _ _ _ _ _ _ _ _ _ _ _ _ _ _ _ _ _ _)
          isplitl [HS1]
          · unfold owns; iexists _; isplitr
            swap; · iexact HS1
            ipureintro; exact View.read_writes_of_cover _ _ _ _ _ (scover_sC1 c _ _ _ _ _ _ _ _ _ _ _ _ _ _ _ _ _ _ _ _)
          iexact HS2
        iexact Hg
      isplitl [Ho]; · iexact Ho
      isplitl [H0]; · iexact H0
      isplitl [H1]; · iexact H1
      unfold owns; iexists _; isplitr
      swap; · iexact H2
      ipureintro; exact View.read_writes_of_cover _ _ _ _ _ (scover_oC2 c _ _ _ _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold stB sB0 sB1; (try dsimp only)
      rw [PhiS_castSucc V c t, PhiS_pos V c _ _ hz]
      iintro ⟨⟨⟨HA, HB, HC, HD, HS0, HS1, HS2⟩, Hg⟩, Ho, ⟨%d0, H0⟩, ⟨%d1, H1⟩, ⟨%d2, H2⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _ _).2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, HS2⟩
      isplitl [HA HB HC HD HS0 HS1 HS2 Hg]
      · isplitr [Hg]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (scover_sB0 c _ _ _ _ _ _ _ _ _ _ _ _ _ _ _ _ _ _ _ _)
          isplitl [HS1]
          · unfold owns; iexists _; isplitr
            swap; · iexact HS1
            ipureintro; exact View.read_writes_of_cover _ _ _ _ _ (scover_sB1 c _ _ _ _ _ _ _ _ _ _ _ _ _ _ _ _ _ _ _ _)
          iexact HS2
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  iintro ⟨⟨HA, HB, HC, HD, HS0, HS1, HS2⟩, Hg⟩
  isplitr [Hg]
  · isplitl [HA]; · iexact HA
    isplitl [HB]; · iexact HB
    isplitl [HC]; · iexact HC
    isplitl [HD]; · iexact HD
    isplitl [HS0]; · iexists _; iexact HS0
    isplitl [HS1]; · iexists _; iexact HS1
    iexists _; iexact HS2
  iexact Hg

theorem hout1 (c : Dev nD) : (dat1 V c).Φ (Fin.last cfg1.N) ⊢ (Pipeline.ΦA spec1 c : sProp 𝕄) :=
  Phi_out1 V c _ (by rw [Fin.val_last]; have : cfg1.N = 64 := N_1; omega)

end Cert.KernelIdeal.Hand

end
-- ==== Proof.KIRun.lean ====
/-
  The whole run of @main: region 0, region 1, then the host stretch of four operations. The buffer contents at
  each segment boundary are folded from the launch memory; each argument array is read back through the fold
  to its launch contents; the three segments chain over the thread state "every unscoped buffer at the
  boundary's contents, the generator register at some state, nothing owed".
-/
import proofs.«170083_j38439957299344_2_alg».proof.Proof.KIRegion0
import proofs.«170083_j38439957299344_2_alg».proof.Proof.KIRegion1
import proofs.«170083_j38439957299344_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch (region 0's entry). -/
abbrev W0 : Dev nD → Valuation τ sig (Elt F) := fun c b => (s₀ m ρ).mem ((c : Dev nD), b)
/-- The same read at the TensorCore's references (what region 0's proof data take). -/
abbrev V0r : (c : Dev nD) → (b : Ref sig .tc) → Buf (Elt F) ((c : Thread nD τ).loc b) := fun c b => W0 m ρ c b
/-- At region 0's exit: its arrays at what the pipeline leaves (the input as entered, the output's write-backs
    folded), every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents, region 1's entry). -/
abbrev V1r : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V1r m ρ) c).arrAt w cfg1.N
theorem W2_arr (c : Dev nD) (w : Fin cfg1.W) :
    W2 m ρ c (Proc.devRef .tc (Pipeline.arrRef spec1 w)) = (dat1 (V1r m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references (region 1's exit contents). -/
abbrev V2r : (c : Dev nD) → (b : Ref sig .tc) → Buf (Elt F) ((c : Thread nD τ).loc b) := fun c b => W2 m ρ c b
theorem hF1 (c : Dev nD) (w : Fin cfg1.W) : (dat1 (V1r m ρ) c).arrAt w cfg1.N = V2r m ρ c (Pipeline.arrRef spec1 w) :=
  (W2_arr m ρ c w).symm
theorem hrest1 (c : Dev nD) : ∀ b, b ∉ Finset.univ.image (Pipeline.arrRef spec1) → V2r m ρ c b = V1r m ρ c b :=
  fun b hb => W2_of_ne m ρ c b fun w e => hb (Finset.mem_image.mpr ⟨w, Finset.mem_univ _, e⟩)

/-- After the host stretch (the last boundary). -/
abbrev W3 : Dev nD → Valuation τ sig (Elt F) := fun c => StableHlo.after hostOps2 (W2 m ρ c)

/-! ### The arguments end as launched: the host stretch writes neither; a region reads one through an input
    window and bypasses the other -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide)
    _ = W1 m ρ c (Proc.devRef .tc main_arg0) := (W2_arr m ρ c 0).trans (((dat1 (V1r m ρ) c).arrAt_in 0 rfl _).trans (A_eq1 (V1r m ρ) c 0))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide)
    _ = W1 m ρ c (Proc.devRef .tc main_arg1) := W2_of_ne m ρ c main_arg1 (by decide)
    _ = W0 m ρ c (Proc.devRef .tc main_arg1) := (W1_arr m ρ c 0).trans (((dat0 (V0r m ρ) c).arrAt_in 0 rfl _).trans (A_eq0 (V0r m ρ) c 0))
    _ = m ((c : Thread nD τ).loc main_arg1) := rfl

/-! ## The proof data family and the thread state -/

/-- Every pipeline's proof data, each at its region's entry contents — a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V1r m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W0`, left at `W1`. Its arrays split
    out of the unscoped buffers and put back at the exit contents; the generator register into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. Its invariant at the
    first point is made from the scoped rest and the generator register (`hin1`) and gives them back at the last
    (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1r m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1r m ρ c) (fun w => A_eq1 (V1r m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1r m ρ) c)
    unfold Pipeline.ΦA
    iintro ⟨Hp, -, Hr⟩
    isplitl [Hr]; · iexact Hr
    iexact Hp
  hout c := by
    rw [Pipeline.ownSems0_none]
    refine BIBase.Entails.trans (hout1 (V1r m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1r m ρ c) (V2r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The host stretch as a segment, entered from region 1's exit contents. -/
abbrev hseg2 : Pipeline.HostSeg (Name := ℕ) (U := UR sig nD τ) (pcfgs (F := F)) defs₀ 𝒱₀ L lv :=
  hseg hostOps2 hostOps2_sub hostOps2_fresh (W2 m ρ)

/-- @main's 3 segments in order: the two regions, then the host stretch. -/
abbrev segs : List (Pipeline.Seg (pcfgs (F := F)) adm (pdats m ρ) () defs₀ 𝒱₀ L lv) :=
  [ .region (reg0 m ρ),
    .region (reg1 m ρ),
    .host (hseg2 m ρ) ]
/-- @main is the run of the segments. -/
theorem main_run (c : Dev nD) : main (F := F) c = Pipeline.Seg.run (segs m ρ) :=
  main_segs adm (pdats m ρ) () 𝒱₀ L lv (hseg2 m ρ) (reg0 m ρ) (reg1 m ρ) rfl c

set_option backward.isDefEq.respectTransparency.types false in
/-- THE RUN: at the compiled mesh, from any memory with zero counters, every weakly fair execution of @main on the
    TensorCores terminates, nothing faulting, and every final state holds every unscoped buffer at the last
    boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every final state has the argument arrays as launched — each read off the last boundary's contents
    (`run_all`) and walked back through the fold (`W3_main_arg0`, `W3_main_arg1`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs (onTc (τ := τ) (main (F := F))) ⟨m, fun _ => 0, ρ⟩).mono (fun r h c =>
    ⟨(h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.Spec.lean ====
/-
  The loss both programs compute, as functions on the extended reals.

  Two matrices x, y of 8192 rows and 1024 columns. Each row is divided by its Euclidean length clipped below at a
  small positive constant (`unit`). The cosine logits are s r c = ∑ₖ unit x r k · unit y c k. The loss is the mean
  over rows r of −log softmax(s r ·) at the diagonal entry c = r.

  One program accumulates ∑_c exp (s r c) directly and returns the mean of 0 − (s r r − log ∑_c exp (s r c))
  (`meanK`); the other subtracts a row constant M r first (the row's maximum) and returns
  −(mean of (s r r − M r) − log ∑_c exp (s r c − M r)) (`meanR`). For real logits and real row constants the two
  agree, whatever the constants are. Nothing here depends on a program.
-/
import Idealize.ShloMosaic.PureOps.Ideal
import Mathlib.Algebra.BigOperators.Fin

noncomputable section

namespace Cert.Spec

open Idealize.ShloMosaic

/-- The float words the programs spell: zero, the clip constant, the row count 8192, minus infinity. -/
def zero : EReal := Ideal.ofBits .f32 0x00000000#32
def eps : EReal := Ideal.ofBits .f32 0x2B8CBCCC#32
def cnt : EReal := Ideal.ofBits .f32 0x46000000#32
def ninf : EReal := Ideal.ofBits .f32 0xFF800000#32

/-- A matrix of 8192 rows and 1024 columns, entry by entry. -/
abbrev Mat : Type := Fin 8192 → Fin 1024 → EReal
/-- A square array of logits. -/
abbrev Sq : Type := Fin 8192 → Fin 8192 → EReal

/-- A row's Euclidean length, clipped below at `eps`. -/
def len (x : Mat) (r : Fin 8192) : EReal := max (Ideal.sqrt (zero + ∑ k : Fin 1024, x r k * x r k)) eps

/-- The rows scaled to unit length. -/
def unit (x : Mat) (r : Fin 8192) (k : Fin 1024) : EReal := Ideal.div (x r k) (len x r)

/-- The cosine logits. -/
def logit (x y : Mat) : Sq := fun r c => ∑ k : Fin 1024, unit x r k * unit y c k

/-- One row's loss, exponentials summed directly. -/
def nllK (s : Sq) (r : Fin 8192) : EReal := zero - (s r r - Ideal.log (∑ c : Fin 8192, Ideal.exp (s r c)))

/-- The mean over the rows. -/
def meanK (s : Sq) : EReal := Ideal.div (zero + ∑ r : Fin 8192, nllK s r) cnt

/-- One row's log-softmax at the diagonal, a row constant `M r` subtracted first. -/
def lsmR (s : Sq) (M : Fin 8192 → EReal) (r : Fin 8192) : EReal :=
  (s r r - M r) - Ideal.log (zero + ∑ c : Fin 8192, Ideal.exp (s r c - M r))

/-- Minus the mean over the rows. -/
def meanR (s : Sq) (M : Fin 8192 → EReal) : EReal := -Ideal.div (zero + ∑ r : Fin 8192, lsmR s M r) cnt

end Cert.Spec

end
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.KIPayloads.lean ====
/-
  The values the two kernel bodies store, read entry by entry at the ideal values.

  The first body stores a 1024 x 1024 tile with each row divided by its Euclidean length clipped below at a small
  positive constant. The second body stores: two zero columns; the same unit-row scaling of its query tile; and, from the
  product s (p, q) = sum over k of u (p, k) * v (q, k) of the stored query tile with a key tile (both contracted along
  their second axis), a running column l + (row sums of exp s), a running column d + (row sums of s kept only where the
  global row number equals the global column number), and at the end the column 0 - (d - log l).
  Every statement is at explicit coordinates (p, q) of a tile, or (p, 0) of a column.
-/
import proofs.«170083_j38439957299344_2_alg».proof.Proof.Gen.KernelIdeal.Skeleton
import proofs.«170083_j38439957299344_2_alg».proof.Proof.Spec
import proofs.«170083_j38439957299344_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx
open Cert.KernelIdeal Cert.KernelIdeal.Gen Cert.Spec Cert.Lib.Keepdims

/-- The zero word is the extended real zero. -/
theorem zero_eq : zero = 0 := Ideal.ofBits_zero_f32

/-! ## The unit-row scaling -/

/-- A tile's row sum of squares, kept as a column: at (p, 0) the sum over the row p. -/
theorem sumsq_col (x : Vec Ideal S1024x1024 .f32) (h : S1024x1024.Reduces [1] S1024) (hc : S1024.ShapeCasts S1024x1)
    (hφ : FKind.Formats .f32) (hacc : (0x00000000#32 : BitVec 32) = FKind.add.neutral .f32 hφ) (p : Fin 1024) :
    shapeCast S1024x1 (multiReduction (F := Ideal) .add [1] S1024 (mulf x x) 0x00000000#32 h hφ hacc) hc (ix2 p (0 : Fin 1))
      = zero + ∑ k : Fin 1024, x (ix2 p k) * x (ix2 p k) := by
  refine (shapeCast_a_a1_apply _ hc p 0).trans ?_
  refine (rowSum_apply (mulf x x) _ h hφ hacc p).trans ?_
  rw [zero_eq, zero_add]
  rfl

/-- A tile scaled to unit rows: the shared term of both bodies, at (p, q). -/
theorem unit_tile (x : Vec Ideal S1024x1024 .f32) (h : S1024x1024.Reduces [1] S1024) (hc : S1024.ShapeCasts S1024x1)
    (hb : S1024x1.Broadcasts S1024x1024) (hφ : FKind.Formats .f32)
    (hacc : (0x00000000#32 : BitVec 32) = FKind.add.neutral .f32 hφ) (p q : Fin 1024) :
    divf x (broadcastTo S1024x1024
        (maximumf (sqrt (shapeCast S1024x1 (multiReduction (F := Ideal) .add [1] S1024 (mulf x x) 0x00000000#32 h hφ hacc) hc))
          (broadcast S1024x1 (Scalar.ofBits (F := Ideal) .f32 0x2B8CBCCC#32))) hb) (ix2 p q)
      = Ideal.div (x (ix2 p q)) (max (Ideal.sqrt (zero + ∑ k : Fin 1024, x (ix2 p k) * x (ix2 p k))) eps) := by
  refine congrArg (Ideal.div (x (ix2 p q))) ?_
  refine (broadcastTo_a1_ab_apply _ hb p q).trans ?_
  exact congrArg (fun t => max (Ideal.sqrt t) eps) (sumsq_col x h hc hφ hacc p)

/-- The first body's stored tile at (p, q): the entry divided by its row's clipped length. -/
theorem pay_unit0 (x : Vec Ideal S1024x1024 .f32) (p q : Fin 1024) :
    k0_pay1 (F := Ideal) x (ix2 p q)
      = Ideal.div (x (ix2 p q)) (max (Ideal.sqrt (zero + ∑ k : Fin 1024, x (ix2 p k) * x (ix2 p k))) eps) := by
  unfold k0_pay1
  exact unit_tile x _ _ _ _ _ p q

/-- The second body's stored query tile at (p, q): the same scaling (the closing cast keeps the shape). -/
theorem pay_unit1 (x : Vec Ideal S1024x1024 .f32) (p q : Fin 1024) :
    k1_pay4 (F := Ideal) x (ix2 p q)
      = Ideal.div (x (ix2 p q)) (max (Ideal.sqrt (zero + ∑ k : Fin 1024, x (ix2 p k) * x (ix2 p k))) eps) := by
  unfold k1_pay4
  refine (congrFun (shapeCast_self _ _) (ix2 p q)).trans ?_
  exact unit_tile x _ _ _ _ _ p q

/-! ## The zero columns and the closing column -/

/-- The first zero column. -/
theorem pay_zero2 (p : Fin 1024) : k1_pay2 (F := Ideal) (ix2 p (0 : Fin 1)) = zero := by
  unfold k1_pay2
  exact congrFun (shapeCast_self _ _) (ix2 p (0 : Fin 1))

/-- The second zero column. -/
theorem pay_zero3 (p : Fin 1024) : k1_pay3 (F := Ideal) (ix2 p (0 : Fin 1)) = zero := by
  unfold k1_pay3
  exact congrFun (shapeCast_self _ _) (ix2 p (0 : Fin 1))

/-- The column stored at the last key tile: 0 - (d - log l), row by row. -/
theorem pay_out (d l : Vec Ideal S1024x1 .f32) (p : Fin 1024) :
    k1_pay1 (F := Ideal) d l (ix2 p (0 : Fin 1)) = zero - (d (ix2 p 0) - Ideal.log (l (ix2 p 0))) := rfl

/-! ## The product of the query tile with a key tile, both contracted along their second axis -/

/-- The product's left operand index keeps the output's row on its first axis, -/
theorem dot_lhs_0 (i : S1024x1024.Idx) (c : dot_S1024x1024_S1024x1024_S1024x1024_1_1_0_0_n_n.contr.Idx) :
    (dot_S1024x1024_S1024x1024_S1024x1024_1_1_0_0_n_n.lhsIdx i c 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- and reads the contraction position on its second axis. -/
theorem dot_lhs_1 (i : S1024x1024.Idx) (c : dot_S1024x1024_S1024x1024_S1024x1024_1_1_0_0_n_n.contr.Idx) :
    (dot_S1024x1024_S1024x1024_S1024x1024_1_1_0_0_n_n.lhsIdx i c 1).val = (c ⟨0, by decide⟩).val :=
  dot_S1024x1024_S1024x1024_S1024x1024_1_1_0_0_n_n.lhsIdx_val_of_single rfl i c

/-- The right operand index keeps the output's column on its first axis, -/
theorem dot_rhs_0 (i : S1024x1024.Idx) (c : dot_S1024x1024_S1024x1024_S1024x1024_1_1_0_0_n_n.contr.Idx) :
    (dot_S1024x1024_S1024x1024_S1024x1024_1_1_0_0_n_n.rhsIdx i c 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- and reads the contraction position on its second axis. -/
theorem dot_rhs_1 (i : S1024x1024.Idx) (c : dot_S1024x1024_S1024x1024_S1024x1024_1_1_0_0_n_n.contr.Idx) :
    (dot_S1024x1024_S1024x1024_S1024x1024_1_1_0_0_n_n.rhsIdx i c 1).val = (c ⟨0, by decide⟩).val :=
  dot_S1024x1024_S1024x1024_S1024x1024_1_1_0_0_n_n.rhsIdx_val_of_single rfl i c

/-- The product at (p, q): the sum over k of u (p, k) * v (q, k). -/
theorem pay_dot (u v : Vec Ideal S1024x1024 .bf16) (p q : Fin 1024) :
    k1_pay5 (F := Ideal) u v (ix2 p q) = ∑ k : Fin 1024, u (ix2 p k) * v (ix2 q k) := by
  unfold k1_pay5
  refine (Ideal.matmul_constant_zero_apply (φ₁ := .bf16) (φ₂ := .bf16) dot_S1024x1024_S1024x1024_S1024x1024_1_1_0_0_n_n none u _ (ix2 p q)).trans ?_
  rw [shapeCast_self, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k :=
    funext fun a => Fin.ext (by
      match a with
      | ⟨0, _⟩ => exact dot_lhs_0 _ _
      | ⟨1, _⟩ => exact (dot_lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k :=
    funext fun a => Fin.ext (by
      match a with
      | ⟨0, _⟩ => exact dot_rhs_0 _ _
      | ⟨1, _⟩ => exact (dot_rhs_1 _ _).trans hk)
  rw [el, er]

/-! ## Row sums kept as a column -/

/-- A tile's row sums, cast to a column: at (p, 0) the sum over the row p. -/
theorem rowsum_col (y : FVec Ideal S1024x1024 .f32) (h : S1024x1024.Reduces [1] S1024) (hc : S1024.ShapeCasts S1024x1)
    (hφ : FKind.Formats .f32) (hacc : (0x00000000#32 : BitVec 32) = FKind.add.neutral .f32 hφ) (p : Fin 1024) :
    shapeCast S1024x1 (multiReduction (F := Ideal) .add [1] S1024 y 0x00000000#32 h hφ hacc) hc (ix2 p (0 : Fin 1))
      = ∑ q : Fin 1024, y (ix2 p q) :=
  (shapeCast_a_a1_apply _ hc p 0).trans (rowSum_apply y _ h hφ hacc p)

/-- The running column of exponentials at (p, 0): l plus the row sum of exp of the product. -/
theorem pay_l (u v : Vec Ideal S1024x1024 .bf16) (l : Vec Ideal S1024x1 .f32) (p : Fin 1024) :
    k1_pay6 (F := Ideal) u v l (ix2 p (0 : Fin 1))
      = l (ix2 p 0) + ∑ q : Fin 1024, Ideal.exp (k1_pay5 (F := Ideal) u v (ix2 p q)) := by
  unfold k1_pay6
  refine (congrFun (shapeCast_self _ _) (ix2 p (0 : Fin 1))).trans ?_
  exact congrArg (l (ix2 p 0) + ·) (rowsum_col (exp (k1_pay5 (F := Ideal) u v)) _ _ _ _ p)

/-! ## The diagonal pick -/

/-- The two 32-bit global numbers 1024 a + p and 1024 b + q (a, b below 8; p, q below 1024: nothing wraps) compare
    equal as words exactly when they are equal as naturals. -/
theorem mask_iff (a b p q : ℕ) (ha : a < 8) (hb : b < 8) (hp : p < 1024) (hq : q < 1024) :
    IntOp.cmpi .eq (IntOp.addi (Scalar.muli (BitVec.ofNat 32 a) 1024#32) (BitVec.ofNat 32 p))
        (IntOp.addi (Scalar.muli (BitVec.ofNat 32 b) 1024#32) (BitVec.ofNat 32 q)) = 1#1
      ↔ 1024 * a + p = 1024 * b + q := by
  have key : (BitVec.ofNat 32 a * 1024#32 + BitVec.ofNat 32 p = BitVec.ofNat 32 b * 1024#32 + BitVec.ofNat 32 q)
      ↔ 1024 * a + p = 1024 * b + q := by
    rw [BitVec.toNat_eq]
    simp only [BitVec.toNat_add, BitVec.toNat_mul, BitVec.toNat_ofNat]
    omega
  show BitVec.ofBool (BitVec.ofNat 32 a * 1024#32 + BitVec.ofNat 32 p == BitVec.ofNat 32 b * 1024#32 + BitVec.ofNat 32 q) = 1#1 ↔ _
  rw [← key]
  by_cases h : BitVec.ofNat 32 a * 1024#32 + BitVec.ofNat 32 p = BitVec.ofNat 32 b * 1024#32 + BitVec.ofNat 32 q
  · rw [beq_iff_eq.mpr h]
    exact ⟨fun _ => h, fun _ => rfl⟩
  · rw [beq_eq_false_iff_ne.mpr h]
    exact ⟨fun h' => absurd h' (by decide), fun h' => absurd h' h⟩

/-- The picked tile at (p, q): the entry where the global row number equals the global column number, else 0. -/
theorem pick_apply (i : grid1.Coords) (y : FVec Ideal S1024x1024 .f32) (h0 : S1024x1024.Iotas .tc 32 [0])
    (h1 : S1024x1024.Iotas .tc 32 [1]) (p q : Fin 1024) :
    select (cmpi .eq
        (addi (broadcast S1024x1024 (Scalar.muli (BitVec.ofNat 32 (i 0).val) 1024#32)) (iota .tc S1024x1024 32 [0] h0))
        (addi (broadcast S1024x1024 (Scalar.muli (BitVec.ofNat 32 (i 1).val) 1024#32)) (iota .tc S1024x1024 32 [1] h1)))
      y (broadcast S1024x1024 (Scalar.ofBits (F := Ideal) .f32 0x00000000#32)) (ix2 p q)
      = if 1024 * (i 0).val + p.val = 1024 * (i 1).val + q.val then y (ix2 p q) else 0 := by
  have e0 : iota .tc S1024x1024 32 [0] h0 (ix2 p q) = BitVec.ofNat 32 p.val :=
    iota_single_apply .tc S1024x1024 32 0 h0 (ix2 p q)
  have e1 : iota .tc S1024x1024 32 [1] h1 (ix2 p q) = BitVec.ofNat 32 q.val :=
    iota_single_apply .tc S1024x1024 32 1 h1 (ix2 p q)
  show Scalar.select (IntOp.cmpi .eq
      (IntOp.addi (Scalar.muli (BitVec.ofNat 32 (i 0).val) 1024#32) (iota .tc S1024x1024 32 [0] h0 (ix2 p q)))
      (IntOp.addi (Scalar.muli (BitVec.ofNat 32 (i 1).val) 1024#32) (iota .tc S1024x1024 32 [1] h1 (ix2 p q))))
    (y (ix2 p q)) zero = _
  rw [e0, e1, zero_eq]
  unfold Scalar.select
  exact if_congr (mask_iff _ _ _ _ (i 0).isLt (i 1).isLt p.isLt q.isLt) rfl rfl

/-- The running diagonal column at (p, 0): d plus the row sum of the picked product. -/
theorem pay_diag (i : grid1.Coords) (u v : Vec Ideal S1024x1024 .bf16) (d : Vec Ideal S1024x1 .f32) (p : Fin 1024) :
    k1_pay7 (F := Ideal) i u v d (ix2 p (0 : Fin 1))
      = d (ix2 p 0) + ∑ q : Fin 1024,
          (if 1024 * (i 0).val + p.val = 1024 * (i 1).val + q.val then k1_pay5 (F := Ideal) u v (ix2 p q) else 0) := by
  unfold k1_pay7
  refine (congrFun (shapeCast_self _ _) (ix2 p (0 : Fin 1))).trans ?_
  refine congrArg (d (ix2 p 0) + ·) ?_
  refine (rowsum_col _ _ _ _ _ p).trans ?_
  exact Finset.sum_congr rfl fun q _ => pick_apply i (k1_pay5 (F := Ideal) u v) _ _ p q

/-- On a tile of the diagonal (query tile number = key tile number) the pick keeps exactly the entry (p, p). -/
theorem pay_diag_hit (i : grid1.Coords) (h : (i 0).val = (i 1).val) (u v : Vec Ideal S1024x1024 .bf16)
    (d : Vec Ideal S1024x1 .f32) (p : Fin 1024) :
    k1_pay7 (F := Ideal) i u v d (ix2 p (0 : Fin 1)) = d (ix2 p 0) + k1_pay5 (F := Ideal) u v (ix2 p p) := by
  rw [pay_diag]
  refine congrArg (d (ix2 p 0) + ·) ?_
  rw [Finset.sum_eq_single p]
  · exact if_pos (by omega)
  · intro q _ hq
    exact if_neg fun hc => hq (Fin.ext (by omega))
  · intro hp
    exact absurd (Finset.mem_univ p) hp

/-- Off the diagonal tiles the pick keeps nothing: the column is unchanged. -/
theorem pay_diag_miss (i : grid1.Coords) (h : (i 0).val ≠ (i 1).val) (u v : Vec Ideal S1024x1024 .bf16)
    (d : Vec Ideal S1024x1 .f32) (p : Fin 1024) :
    k1_pay7 (F := Ideal) i u v d (ix2 p (0 : Fin 1)) = d (ix2 p 0) := by
  rw [pay_diag]
  have hz : ∑ q : Fin 1024,
      (if 1024 * (i 0).val + p.val = 1024 * (i 1).val + q.val then k1_pay5 (F := Ideal) u v (ix2 p q) else 0) = 0 :=
    Finset.sum_eq_zero fun q _ => if_neg (by have := p.isLt; have := q.isLt; omega)
  rw [hz, add_zero]

end Cert.KernelIdeal.Pay

end
-- ==== Proof.KIValue0.lean ====
/-
  Region 0's output array after the run, at the ideal values: every row of the input matrix divided by its Euclidean
  length clipped below at a small positive constant.

  The grid has 8 points; point t reads rows 1024 t … 1024 t + 1023 of the input (all 1024 columns) and writes the same
  rows of the output. A row's clipped length only needs that row, and the whole row lies in the block, so what point t
  writes back is block t of one function of the input array, and the 8 blocks cover the output's 8192 rows: row r is
  covered by point r / 1024.
-/
import proofs.«170083_j38439957299344_2_alg».proof.Proof.KIRegion0
import proofs.«170083_j38439957299344_2_alg».proof.Proof.KIPayloads
import proofs.«170083_j38439957299344_2_alg».proof.Proof.Spec
import Idealize.ShloMosaic.Lib.Pipeline.Value

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-- The output array of region 0: the rows of the input matrix scaled to unit length. -/
def G0 (c : Dev nD) : Buf (Elt Ideal) ((c : Thread nD τ).loc main_v0) :=
  fun i => Cert.Spec.unit (fun r k => V c main_arg1 (ix2 r k)) (i 0) (i 1)

/-- The printed index maps over the 8 grid points: point t's input and output blocks are both block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- One block's stored tile, entry by entry: if the tile x is rows 1024 n … 1024 n + 1023 of the array A, the stored
    entry (p, q) is entry (1024 n + p, q) of A's rows scaled to unit length. -/
theorem block_entry (x : Vec Ideal S1024x1024 .f32) (A : S8192x1024.Idx → EReal) (n : ℕ) (hn : n < 8)
    (hx : ∀ p k : Fin 1024, x (ix2 p k) = A (ix2 (⟨1024 * n + p.val, by omega⟩ : Fin 8192) k)) (p q : Fin 1024) :
    k0_pay1 (F := Ideal) x (ix2 p q)
      = Cert.Spec.unit (fun r k => A (ix2 r k)) (⟨1024 * n + p.val, by omega⟩ : Fin 8192) q := by
  refine (Cert.KernelIdeal.Pay.pay_unit0 x p q).trans ?_
  unfold Cert.Spec.unit Cert.Spec.len
  simp only [hx]

/-- The input window's block at point t is rows 1024 t … 1024 t + 1023 of the input array. -/
theorem iblk_apply (c : Dev nD) (t : Fin cfg0.N) (p k : Fin 1024) (i : S8192x1024.Idx)
    (hi0 : (i 0).val = 1024 * t.val + p.val) (hi1 : (i 1).val = k.val) :
    (iblk0 V c 0 t : Vec Ideal S1024x1024 .f32) (ix2 p k) = (V c main_arg1 : S8192x1024.Idx → EReal) i := by
  obtain ⟨e0, e1, -, -⟩ := idx_facts t
  unfold iblk0
  rw [View.read_apply]
  show (V c main_arg1 : S8192x1024.Idx → EReal) _ = (V c main_arg1 : S8192x1024.Idx → EReal) _
  congr 1
  funext a
  apply Fin.ext
  match a with
  | ⟨0, _⟩ => show win0_0.index t (0 : Fin 2) * 1024 + 1 * p.val = (i 0).val; omega
  | ⟨1, _⟩ => show win0_0.index t (1 : Fin 2) * 1024 + 1 * k.val = (i 1).val; omega

/-- What point t writes back is block t of G0 of the input array as the region finds it. -/
theorem flushed_eq (c : Dev nD) (t : Fin cfg0.N) :
    (dat0 (F := Ideal) V c).flushed 1 t = ((cfg0.win 1).blk t).view.read (Elt Ideal) (G0 V c) := by
  show (cfg0.win 1).cut (grid0.coords t) ((dat0 (F := Ideal) V c).after 1 t) = _
  rw [after0_1]
  unfold out0_1
  rw [View.canon_unit_zero hz]
  simp only [View.ld_unit_zero (S := S1024x1024) hz]
  have ht : t.val < 8 := by have h := t.isLt; have hN : cfg0.N = 8 := N_0; omega
  obtain ⟨-, -, e2, e3⟩ := idx_facts t
  funext j
  obtain ⟨p, q, rfl⟩ : ∃ (p q : Fin 1024), j = ix2 p q := ⟨j 0, j 1, eq_ix2 j⟩
  show k0_pay1 (F := Ideal) (iblk0 V c 0 t) (ix2 p q) = G0 V c (((cfg0.win 1).blk t).view.emb (ix2 p q))
  refine (block_entry (iblk0 V c 0 t) (V c main_arg1) t.val ht (fun p k => iblk_apply V c t p k _ rfl rfl) p q).trans ?_
  unfold G0
  have h0 : (((cfg0.win 1).blk t).view.emb (ix2 p q)) 0 = (⟨1024 * t.val + p.val, by omega⟩ : Fin 8192) := by
    apply Fin.ext
    show win0_1.index t (0 : Fin 2) * 1024 + 1 * p.val = 1024 * t.val + p.val
    omega
  have h1 : (((cfg0.win 1).blk t).view.emb (ix2 p q)) 1 = q := by
    apply Fin.ext
    show win0_1.index t (1 : Fin 2) * 1024 + 1 * q.val = q.val
    omega
  rw [h0, h1]

/-- An index of the output array is in point t's block iff each coordinate is in the block's range on its axis. -/
theorem mem_blk (t : Fin cfg0.N) (i : S8192x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v0).slice (win0_1.rect t)).set ↔ _
  rw [View.set_slice_whole, Rect.mem_set_unit]
  exact Iff.rfl

/-- Every index of the output array is in some point's block: row r is in the block of point r / 1024. -/
theorem cover (i : S8192x1024.Idx) :
    ∃ t : Fin cfg0.N, (cfg0.win 1).flush t = true ∧ i ∈ ((cfg0.win 1).blk t).view.set := by
  have hi0 : (i 0).val < 8192 := (i 0).isLt
  have hi1 : (i 1).val < 1024 := (i 1).isLt
  have hN : cfg0.N = 8 := N_0
  refine ⟨⟨(i 0).val / 1024, by rw [hN]; omega⟩, flush0_1 _, ?_⟩
  rw [mem_blk]
  obtain ⟨-, -, e2, e3⟩ := idx_facts ⟨(i 0).val / 1024, by rw [hN]; omega⟩
  intro a
  match a with
  | ⟨0, _⟩ =>
    show win0_1.index _ (0 : Fin 2) * 1024 ≤ (i 0).val ∧ (i 0).val < win0_1.index _ (0 : Fin 2) * 1024 + 1024
    rw [e2]; show (i 0).val / 1024 * 1024 ≤ (i 0).val ∧ (i 0).val < (i 0).val / 1024 * 1024 + 1024; omega
  | ⟨1, _⟩ =>
    show win0_1.index _ (1 : Fin 2) * 1024 ≤ (i 1).val ∧ (i 1).val < win0_1.index _ (1 : Fin 2) * 1024 + 1024
    rw [e3]; omega

/-- The output array of region 0 after the run: the rows of the input matrix scaled to unit length. -/
theorem final0 (c : Dev nD) : (dat0 (F := Ideal) V c).arrAt 1 cfg0.N = G0 V c :=
  (dat0 (F := Ideal) V c).arrAt_eq_of_cover 1 (G0 V c) (fun t _ => flushed_eq V c t) cover

end Cert.KernelIdeal.Val

end
-- ==== Proof.KIPieces1.lean ====
/-
  Region 1: each case's stored pieces, read back as values of the body's loads.

  Every store of the body covers its whole buffer, so what a buffer holds after a case is the payload of the last
  store into it. In the first case the two accumulator columns are first zeroed and then read back, so their updates
  are taken from the zero columns, and the unit-scaled query tile is stored from the raw tile and read back in the
  same body. In the other cases the updates are taken from what the buffers held, and the tile is only read.
-/
import proofs.«170083_j38439957299344_2_alg».proof.Proof.KIRegion1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access. -/
theorem hz2 : (![0, 0] : Fin 2 → Nat) = fun _ => 0 := funext fun a => by fin_cases a <;> rfl

/-- First case, the first accumulator column: zeroed, read back, and one tile's row sums added — the tile being the unit-scaled query tile just stored. -/
theorem sA0_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) :
    sA0 c i arg2 harg2 arg3 harg3 arg4 harg4 arg5 harg5 arg6 harg6 arg7 harg7 hc0 hc1 x0 x1 = k1_pay6 (k1_pay4 x0) x1 k1_pay2 := by
  unfold sA0
  rw [View.read_writes_eq_canon _ _ _ (scover_sA0 c i arg2 harg2 arg3 harg3 arg4 harg4 arg5 harg5 arg6 harg6 arg7 harg7 hc0 hc1 x0 x1)]
  unfold kernelRun1_A
  dsimp only
  sl_unfold_words
  rw [View.canon_cons_unit_zero (S := S1024x1) hz2]
  simp only [View.readCov_unit_zero (S := S1024x1024) _ hz2, View.readCov_unit_zero (S := S1024x1) _ hz2, View.readAt_eq_ld, harg2.read_unread, harg3.read_unread, harg5.read_unread, harg6.read_unread, harg7.read_unread, View.ld_unit_zero (S := S1024x1024) hz2, View.ld_unit_zero (S := S1024x1) hz2]

/-- First case, the second accumulator column: zeroed, read back, and the tile's diagonal pick added. -/
theorem sA1_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) :
    sA1 c i arg2 harg2 arg3 harg3 arg4 harg4 arg5 harg5 arg6 harg6 arg7 harg7 hc0 hc1 x0 x1 = k1_pay7 i (k1_pay4 x0) x1 k1_pay3 := by
  unfold sA1
  rw [View.read_writes_eq_canon _ _ _ (scover_sA1 c i arg2 harg2 arg3 harg3 arg4 harg4 arg5 harg5 arg6 harg6 arg7 harg7 hc0 hc1 x0 x1)]
  unfold kernelRun1_A
  dsimp only
  sl_unfold_words
  rw [View.canon_cons_unit_zero (S := S1024x1) hz2]
  simp only [View.readCov_unit_zero (S := S1024x1024) _ hz2, View.readCov_unit_zero (S := S1024x1) _ hz2, View.readAt_eq_ld, harg2.read_unread, harg3.read_unread, harg5.read_unread, harg6.read_unread, harg7.read_unread, View.ld_unit_zero (S := S1024x1024) hz2, View.ld_unit_zero (S := S1024x1) hz2]

/-- First case, the unit-scaled query tile: stored from the raw tile. -/
theorem sA2_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : cond1_0 i) (hc1 : ¬cond1_1 i)
    (x0 : Vec F S1024x1024 .f32) (x1 : Vec F S1024x1024 .bf16) :
    sA2 c i arg2 harg2 arg3 harg3 arg4 harg4 arg5 harg5 arg6 harg6 arg7 harg7 hc0 hc1 x0 x1 = k1_pay4 x0 := by
  unfold sA2
  rw [View.read_writes_eq_canon _ _ _ (scover_sA2 c i arg2 harg2 arg3 harg3 arg4 harg4 arg5 harg5 arg6 harg6 arg7 harg7 hc0 hc1 x0 x1)]
  unfold kernelRun1_A
  dsimp only
  sl_unfold_words
  rw [View.canon_unit_zero (S := S1024x1024) hz2]
  simp only [View.readCov_unit_zero (S := S1024x1024) _ hz2, View.readCov_unit_zero (S := S1024x1) _ hz2, View.readAt_eq_ld, harg2.read_unread, harg3.read_unread, harg5.read_unread, harg6.read_unread, harg7.read_unread, View.ld_unit_zero (S := S1024x1024) hz2, View.ld_unit_zero (S := S1024x1) hz2]

/-- Middle case, the first accumulator column: one tile's row sums added to what it held. -/
theorem sB0_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) :
    sB0 c i arg2 harg2 arg3 harg3 arg4 harg4 arg5 harg5 arg6 harg6 arg7 harg7 hc0 hc1 x0 x1 xs0 xs1 xs2 = k1_pay6 xs2 x1 xs0 := by
  unfold sB0
  rw [View.read_writes_eq_canon _ _ _ (scover_sB0 c i arg2 harg2 arg3 harg3 arg4 harg4 arg5 harg5 arg6 harg6 arg7 harg7 hc0 hc1 x0 x1 xs0 xs1 xs2)]
  unfold kernelRun1_B
  dsimp only
  sl_unfold_words
  rw [View.canon_unit_zero (S := S1024x1) hz2]
  simp only [View.readCov_unit_zero (S := S1024x1024) _ hz2, View.readCov_unit_zero (S := S1024x1) _ hz2, View.readAt_eq_ld, harg2.read_unread, harg3.read_unread, harg5.read_unread, harg6.read_unread, harg7.read_unread, View.ld_unit_zero (S := S1024x1024) hz2, View.ld_unit_zero (S := S1024x1) hz2]

/-- Middle case, the second accumulator column: the tile's diagonal pick added to what it held. -/
theorem sB1_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : ¬cond1_1 i)
    (x0 : Vec F S1024x1024 .f32) (x1 : Vec F S1024x1024 .bf16) (xs0 : Vec F S1024x1 .f32) (xs1 : Vec F S1024x1 .f32) (xs2 : Vec F S1024x1024 .bf16) :
    sB1 c i arg2 harg2 arg3 harg3 arg4 harg4 arg5 harg5 arg6 harg6 arg7 harg7 hc0 hc1 x0 x1 xs0 xs1 xs2 = k1_pay7 i xs2 x1 xs1 := by
  unfold sB1
  rw [View.read_writes_eq_canon _ _ _ (scover_sB1 c i arg2 harg2 arg3 harg3 arg4 harg4 arg5 harg5 arg6 harg6 arg7 harg7 hc0 hc1 x0 x1 xs0 xs1 xs2)]
  unfold kernelRun1_B
  dsimp only
  sl_unfold_words
  rw [View.canon_unit_zero (S := S1024x1) hz2]
  simp only [View.readCov_unit_zero (S := S1024x1024) _ hz2, View.readCov_unit_zero (S := S1024x1) _ hz2, View.readAt_eq_ld, harg2.read_unread, harg3.read_unread, harg5.read_unread, harg6.read_unread, harg7.read_unread, View.ld_unit_zero (S := S1024x1024) hz2, View.ld_unit_zero (S := S1024x1) hz2]

/-- Last case, the output block: computed from the two accumulator columns as just updated. -/
theorem oC2_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) :
    oC2 c i arg2 harg2 arg3 harg3 arg4 harg4 arg5 harg5 arg6 harg6 arg7 harg7 hc0 hc1 x0 x1 xs0 xs1 xs2 = k1_pay1 (k1_pay7 i xs2 x1 xs1) (k1_pay6 xs2 x1 xs0) := by
  unfold oC2
  rw [View.read_writes_eq_canon _ _ _ (scover_oC2 c i arg2 harg2 arg3 harg3 arg4 harg4 arg5 harg5 arg6 harg6 arg7 harg7 hc0 hc1 x0 x1 xs0 xs1 xs2)]
  unfold kernelRun1_C
  dsimp only
  sl_unfold_words
  rw [View.canon_unit_zero (S := S1024x1) hz2]
  simp only [View.readCov_unit_zero (S := S1024x1024) _ hz2, View.readCov_unit_zero (S := S1024x1) _ hz2, View.readAt_eq_ld, harg2.read_unread, harg3.read_unread, harg5.read_unread, harg6.read_unread, harg7.read_unread, View.ld_unit_zero (S := S1024x1024) hz2, View.ld_unit_zero (S := S1024x1) hz2]

/-- Last case, the first accumulator column: as in the middle case. -/
theorem sC0_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) :
    sC0 c i arg2 harg2 arg3 harg3 arg4 harg4 arg5 harg5 arg6 harg6 arg7 harg7 hc0 hc1 x0 x1 xs0 xs1 xs2 = k1_pay6 xs2 x1 xs0 := by
  unfold sC0
  rw [View.read_writes_eq_canon _ _ _ (scover_sC0 c i arg2 harg2 arg3 harg3 arg4 harg4 arg5 harg5 arg6 harg6 arg7 harg7 hc0 hc1 x0 x1 xs0 xs1 xs2)]
  unfold kernelRun1_C
  dsimp only
  sl_unfold_words
  rw [View.canon_unit_zero (S := S1024x1) hz2]
  simp only [View.readCov_unit_zero (S := S1024x1024) _ hz2, View.readCov_unit_zero (S := S1024x1) _ hz2, View.readAt_eq_ld, harg2.read_unread, harg3.read_unread, harg5.read_unread, harg6.read_unread, harg7.read_unread, View.ld_unit_zero (S := S1024x1024) hz2, View.ld_unit_zero (S := S1024x1) hz2]

/-- Last case, the second accumulator column: as in the middle case. -/
theorem sC1_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .bf16) (harg7 : arg7.IsWhole) (hc0 : ¬cond1_0 i) (hc1 : cond1_1 i)
    (x0 : Vec F S1024x1024 .f32) (x1 : Vec F S1024x1024 .bf16) (xs0 : Vec F S1024x1 .f32) (xs1 : Vec F S1024x1 .f32) (xs2 : Vec F S1024x1024 .bf16) :
    sC1 c i arg2 harg2 arg3 harg3 arg4 harg4 arg5 harg5 arg6 harg6 arg7 harg7 hc0 hc1 x0 x1 xs0 xs1 xs2 = k1_pay7 i xs2 x1 xs1 := by
  unfold sC1
  rw [View.read_writes_eq_canon _ _ _ (scover_sC1 c i arg2 harg2 arg3 harg3 arg4 harg4 arg5 harg5 arg6 harg6 arg7 harg7 hc0 hc1 x0 x1 xs0 xs1 xs2)]
  unfold kernelRun1_C
  dsimp only
  sl_unfold_words
  rw [View.canon_unit_zero (S := S1024x1) hz2]
  simp only [View.readCov_unit_zero (S := S1024x1024) _ hz2, View.readCov_unit_zero (S := S1024x1) _ hz2, View.readAt_eq_ld, harg2.read_unread, harg3.read_unread, harg5.read_unread, harg6.read_unread, harg7.read_unread, View.ld_unit_zero (S := S1024x1024) hz2, View.ld_unit_zero (S := S1024x1) hz2]

end Cert.KernelIdeal.Hand

end
-- ==== Proof.LibBlockSum.lean ====
/-
  A sum over 4096 positions taken in four consecutive stretches of 1024: the law that joins a contraction
  accumulated stretch by stretch with the contraction taken whole.  Only commutativity and associativity of
  the sum are used, so it holds in any additive commutative monoid — the extended reals included, with no
  finiteness hypothesis.
-/
import Mathlib.Algebra.BigOperators.Fin
import Mathlib.Algebra.BigOperators.Intervals

namespace Cert.BlockSum

variable {M : Type*} [AddCommMonoid M]

/-- A sum over the first `c * n` naturals is the sum, over the `c` stretches of length `n`, of each stretch's sum. -/
theorem sum_range_blocks (g : ℕ → M) (n : ℕ) :
    ∀ c : ℕ, ∑ k ∈ Finset.range (c * n), g k = ∑ s ∈ Finset.range c, ∑ l ∈ Finset.range n, g (n * s + l)
  | 0 => by simp
  | c + 1 => by
    rw [Nat.succ_mul, Finset.sum_range_add, sum_range_blocks g n c, Finset.sum_range_succ, Nat.mul_comm n c]

/-- The same with both index sets spelt as `Fin`: 4096 positions as four stretches of 1024. -/
theorem sum_fin_4096 (g : ℕ → M) :
    ∑ k : Fin 4096, g k.val = ∑ s ∈ Finset.range 4, ∑ l : Fin 1024, g (1024 * s + l.val) := by
  rw [Fin.sum_univ_eq_sum_range g 4096, show (4096 : ℕ) = 4 * 1024 from rfl, sum_range_blocks g 1024 4]
  refine Finset.sum_congr rfl fun s _ => ?_
  exact (Fin.sum_univ_eq_sum_range (fun l => g (1024 * s + l)) 1024).symm

end Cert.BlockSum
-- ==== Proof.KIBlocks1.lean ====
/-
  The second launch's grid and its input blocks, read entry by entry.

  The grid has 8 x 8 = 64 points; point t works on query tile t / 8 and key tile t % 8, tiles of 1024 rows. Row p of
  tile j is row 1024 j + p of the whole array (`row`). The block a point reads of the first argument is the rows of its
  query tile, and the block it reads of the unit-scaled second argument is the rows of its key tile. A sum over all
  8192 rows is the sum over the 8 tiles of the sums over each tile's 1024 rows.
-/
import proofs.«170083_j38439957299344_2_alg».proof.Proof.KIRegion1
import proofs.«170083_j38439957299344_2_alg».proof.Proof.Spec
import proofs.«170083_j38439957299344_2_alg».proof.Proof.LibBlockSum
import Idealize.ShloMosaic.Lib.Pipeline.Value
import Idealize.ShloMosaic.Lib.ValueIdx

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Hand

/-- Row p of tile j, as a row of the whole array of 8192 rows (for j below 8 the remainder changes nothing). -/
def row (j : ℕ) (p : Fin 1024) : Fin 8192 := ⟨(1024 * j + p.val) % 8192, Nat.mod_lt _ (by norm_num)⟩

/-- Point t of the grid has query tile t / 8 and key tile t % 8. -/
theorem coords1 : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)

/-- The three windows' block numbers at point t: the query tile, the key tile, the query tile; always column block 0. -/
theorem idx1 : ∀ t : Fin cfg1.N, win1_0.index t 0 = t.val / 8 ∧ win1_0.index t 1 = 0 ∧ win1_1.index t 0 = t.val % 8
    ∧ win1_1.index t 1 = 0 ∧ win1_2.index t 0 = t.val / 8 ∧ win1_2.index t 1 = 0 :=
  (by decide +kernel : ∀ t : Fin grid1.N, win1_0.index t 0 = t.val / 8 ∧ win1_0.index t 1 = 0 ∧ win1_1.index t 0 = t.val % 8
    ∧ win1_1.index t 1 = 0 ∧ win1_2.index t 0 = t.val / 8 ∧ win1_2.index t 1 = 0)

variable (V : (c : Dev nD) → (b : Ref sig .tc) → Buf (Elt Ideal) ((c : Thread nD τ).loc b))

/-- The first argument's block at point t, at (p, k): the whole array at row p of the query tile, column k. -/
theorem blk0_apply (c : Dev nD) (t : Fin cfg1.N) (p k : Fin 1024) :
    iblk1 V c 0 t (ix2 p k) = V c main_arg0 (ix2 (row (t.val / 8) p) k) := by
  have hN : t.val < 64 := lt_of_lt_of_eq t.isLt N_1
  have hi := idx1 t
  unfold iblk1
  rw [View.read_apply]
  show V c main_arg0 _ = V c main_arg0 _
  congr 1
  funext a
  apply Fin.ext
  match a with
  | ⟨0, _⟩ =>
    show win1_0.index t 0 * 1024 + 1 * p.val = (1024 * (t.val / 8) + p.val) % 8192
    rw [hi.1]; omega
  | ⟨1, _⟩ =>
    show win1_0.index t 1 * 1024 + 1 * k.val = k.val
    rw [hi.2.1]; omega

/-- The unit-scaled second argument's block at point t, at (q, k): the whole array at row q of the key tile, column k. -/
theorem blk1_apply (c : Dev nD) (t : Fin cfg1.N) (q k : Fin 1024) :
    iblk1 V c 1 t (ix2 q k) = V c main_v0 (ix2 (row (t.val % 8) q) k) := by
  have hN : t.val < 64 := lt_of_lt_of_eq t.isLt N_1
  have hi := idx1 t
  unfold iblk1
  rw [View.read_apply]
  show V c main_v0 _ = V c main_v0 _
  congr 1
  funext a
  apply Fin.ext
  match a with
  | ⟨0, _⟩ =>
    show win1_1.index t 0 * 1024 + 1 * q.val = (1024 * (t.val % 8) + q.val) % 8192
    rw [hi.2.2.1]; omega
  | ⟨1, _⟩ =>
    show win1_1.index t 1 * 1024 + 1 * k.val = k.val
    rw [hi.2.2.2.1]; omega

/-- A sum over the 8192 rows, tile by tile. Only commutativity and associativity of the sum are used. -/
theorem sum_rows (f : Fin 8192 → EReal) :
    ∑ c : Fin 8192, f c = ∑ j ∈ Finset.range 8, ∑ q : Fin 1024, f (row j q) := by
  let g : ℕ → EReal := fun n => f ⟨n % 8192, Nat.mod_lt _ (by norm_num)⟩
  have h1 : ∑ c : Fin 8192, f c = ∑ c : Fin 8192, g c.val :=
    Finset.sum_congr rfl fun c _ => congrArg f (Fin.ext (Nat.mod_eq_of_lt c.isLt).symm)
  calc ∑ c : Fin 8192, f c = ∑ c : Fin 8192, g c.val := h1
    _ = ∑ k ∈ Finset.range (8 * 1024), g k := Fin.sum_univ_eq_sum_range g 8192
    _ = ∑ s ∈ Finset.range 8, ∑ l ∈ Finset.range 1024, g (1024 * s + l) := Cert.BlockSum.sum_range_blocks g 1024 8
    _ = ∑ j ∈ Finset.range 8, ∑ q : Fin 1024, f (row j q) :=
      Finset.sum_congr rfl fun s _ => (Fin.sum_univ_eq_sum_range (fun l => g (1024 * s + l)) 1024).symm

end Cert.KernelIdeal.Val

end
-- ==== Proof.KIValue1.lean ====
/-
  Region 1's accumulation, read as values on the extended reals.

  Write r = 1024·i + p for row p of query tile i and c = 1024·j + q for row q of key tile j. At point (i, j) the body
  adds ∑_q exp (s r c) into the first accumulator column and, when i = j, the diagonal logit s r r into the second
  (the pick "global row = global column" selects exactly q = p on the diagonal tile and nothing elsewhere). By
  induction along the grid, after point (i, j) the first column holds the sum over the key tiles 0 … j and the second
  holds s r r once the diagonal tile has been passed. After key tile 7 the body stores 0 − (diag − log l): one row's
  loss with the exponentials summed over all 8192 columns, the eight stretches of 1024 taken one after the other.
-/
import proofs.«170083_j38439957299344_2_alg».proof.Proof.KIPieces1
import proofs.«170083_j38439957299344_2_alg».proof.Proof.KIPayloads
import proofs.«170083_j38439957299344_2_alg».proof.Proof.KIBlocks1
import proofs.«170083_j38439957299344_2_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Pay Cert.Spec

variable (V : (c : Dev nD) → (b : Ref sig .tc) → Buf (Elt Ideal) ((c : Thread nD τ).loc b)) (c : Dev nD)

/-- The query matrix and the key matrix as the region finds them. -/
def Xq : Mat := fun r k => V c main_arg0 (ix2 r k)
def Yk : Mat := fun r k => V c main_v0 (ix2 r k)

/-- The logits of the unit-scaled query rows against the key rows as found. -/
def S1 : Sq := fun r cc => ∑ k : Fin 1024, unit (Xq V c) r k * Yk V c cc k

/-- What the three scratch buffers hold after the body at position `n` (query tile n / 8, key tile n % 8). -/
structure Inv (n : ℕ) (st : Vec Ideal S1024x1 .f32 × Vec Ideal S1024x1 .f32 × Vec Ideal S1024x1 .f32 × Vec Ideal S1024x1024 .bf16) : Prop where
  u : ∀ p k : Fin 1024, st.2.2.2 (ix2 p k) = unit (Xq V c) (row (n / 8) p) k
  l : ∀ p : Fin 1024, st.2.1 (ix2 p (0 : Fin 1)) = zero + ∑ j ∈ Finset.range (n % 8 + 1), ∑ q : Fin 1024, Ideal.exp (S1 V c (row (n / 8) p) (row j q))
  d : ∀ p : Fin 1024, st.2.2.1 (ix2 p (0 : Fin 1)) = zero + (if n / 8 ≤ n % 8 then S1 V c (row (n / 8) p) (row (n / 8) p) else 0)

/-- The unit-scaled query tile stored at key tile 0, entry by entry. -/
theorem tile_apply (t : Fin cfg1.N) (p k : Fin 1024) :
    k1_pay4 (F := Ideal) (iblk1 V c 0 t) (ix2 p k) = unit (Xq V c) (row (t.val / 8) p) k := by
  rw [pay_unit1]
  simp only [blk0_apply]
  rfl

/-- One tile of logits: the carried query tile against the point's key block. -/
theorem dot_apply (t : Fin cfg1.N) (u : Vec Ideal S1024x1024 .bf16)
    (hu : ∀ p k : Fin 1024, u (ix2 p k) = unit (Xq V c) (row (t.val / 8) p) k) (p q : Fin 1024) :
    k1_pay5 (F := Ideal) u (iblk1 V c 1 t) (ix2 p q) = S1 V c (row (t.val / 8) p) (row (t.val % 8) q) := by
  rw [pay_dot]
  refine Finset.sum_congr rfl fun k _ => ?_
  rw [hu p k, blk1_apply]
  rfl

/-- After a point of the first case (key tile 0). -/
theorem inv_A (t : Fin cfg1.N) (h0 : t.val % 8 = 0) (h1 : ¬t.val % 8 = 7) : Inv V c t.val (stA V c t h0 h1) := by
  have hc := coords1 t
  refine ⟨fun p k => ?_, fun p => ?_, fun p => ?_⟩
  · dsimp only [stA]
    rw [sA2_eq]
    exact tile_apply V c t p k
  · dsimp only [stA]
    rw [sA0_eq, pay_l, pay_zero2, h0, Finset.sum_range_one]
    have hd : (∑ q : Fin 1024, Ideal.exp (k1_pay5 (F := Ideal) (k1_pay4 (F := Ideal) (iblk1 V c 0 t)) (iblk1 V c 1 t) (ix2 p q)))
        = ∑ q : Fin 1024, Ideal.exp (S1 V c (row (t.val / 8) p) (row 0 q)) :=
      Finset.sum_congr rfl fun q _ => by rw [dot_apply V c t _ (tile_apply V c t) p q, h0]
    rw [hd]
  · dsimp only [stA]
    rw [sA1_eq]
    by_cases hq : t.val / 8 = 0
    · rw [pay_diag_hit (grid1.coords t) (by rw [hc.1, hc.2, hq, h0]) _ _ _ p, pay_zero3, dot_apply V c t _ (tile_apply V c t) p p,
        if_pos (by omega), h0, hq]
    · rw [pay_diag_miss (grid1.coords t) (by rw [hc.1, hc.2, h0]; exact hq) _ _ _ p, pay_zero3, if_neg (by omega), add_zero]

/-- The two accumulator columns after a point past key tile 0, from what the point before left. -/
theorem inv_step (t : Fin cfg1.N) (h0 : ¬t.val % 8 = 0) (st : Vec Ideal S1024x1 .f32 × Vec Ideal S1024x1 .f32 × Vec Ideal S1024x1 .f32 × Vec Ideal S1024x1024 .bf16) (hp : Inv V c (t.val - 1) st) :
    (∀ p k : Fin 1024, st.2.2.2 (ix2 p k) = unit (Xq V c) (row (t.val / 8) p) k)
    ∧ (∀ p : Fin 1024, k1_pay6 (F := Ideal) st.2.2.2 (iblk1 V c 1 t) st.2.1 (ix2 p (0 : Fin 1))
        = zero + ∑ j ∈ Finset.range (t.val % 8 + 1), ∑ q : Fin 1024, Ideal.exp (S1 V c (row (t.val / 8) p) (row j q)))
    ∧ (∀ p : Fin 1024, k1_pay7 (F := Ideal) (grid1.coords t) st.2.2.2 (iblk1 V c 1 t) st.2.2.1 (ix2 p (0 : Fin 1))
        = zero + (if t.val / 8 ≤ t.val % 8 then S1 V c (row (t.val / 8) p) (row (t.val / 8) p) else 0)) := by
  have hc := coords1 t
  have hq : (t.val - 1) / 8 = t.val / 8 := by omega
  have hk : (t.val - 1) % 8 + 1 = t.val % 8 := by omega
  have hu : ∀ p k : Fin 1024, st.2.2.2 (ix2 p k) = unit (Xq V c) (row (t.val / 8) p) k := fun p k => by
    rw [← hq]; exact hp.u p k
  refine ⟨hu, fun p => ?_, fun p => ?_⟩
  · have hd : (∑ q : Fin 1024, Ideal.exp (k1_pay5 (F := Ideal) st.2.2.2 (iblk1 V c 1 t) (ix2 p q)))
        = ∑ q : Fin 1024, Ideal.exp (S1 V c (row (t.val / 8) p) (row (t.val % 8) q)) :=
      Finset.sum_congr rfl fun q _ => by rw [dot_apply V c t _ hu p q]
    rw [pay_l, hp.l p, hq, hk, hd, Finset.sum_range_succ, add_assoc]
  · have hdl := hp.d p
    rw [hq] at hdl
    by_cases hh : t.val / 8 = t.val % 8
    · rw [pay_diag_hit (grid1.coords t) (by rw [hc.1, hc.2]; exact hh) _ _ _ p, hdl, dot_apply V c t _ hu p p,
        if_neg (by omega), if_pos (by omega), add_zero, ← hh]
    · rw [pay_diag_miss (grid1.coords t) (by rw [hc.1, hc.2]; exact hh) _ _ _ p, hdl]
      by_cases hle : t.val / 8 ≤ t.val % 8
      · rw [if_pos (by omega), if_pos hle]
      · rw [if_neg (by omega), if_neg hle]

/-- After a point of the middle case. -/
theorem inv_B (t : Fin cfg1.N) (h0 : ¬t.val % 8 = 0) (h1 : ¬t.val % 8 = 7) (st : Vec Ideal S1024x1 .f32 × Vec Ideal S1024x1 .f32 × Vec Ideal S1024x1 .f32 × Vec Ideal S1024x1024 .bf16)
    (hp : Inv V c (t.val - 1) st) : Inv V c t.val (stB V c t h0 h1 st) := by
  obtain ⟨hu, hl, hd⟩ := inv_step V c t h0 st hp
  refine ⟨hu, fun p => ?_, fun p => ?_⟩
  · dsimp only [stB]; rw [sB0_eq]; exact hl p
  · dsimp only [stB]; rw [sB1_eq]; exact hd p

/-- After a point of the last case. -/
theorem inv_C (t : Fin cfg1.N) (h0 : ¬t.val % 8 = 0) (h1 : t.val % 8 = 7) (st : Vec Ideal S1024x1 .f32 × Vec Ideal S1024x1 .f32 × Vec Ideal S1024x1 .f32 × Vec Ideal S1024x1024 .bf16)
    (hp : Inv V c (t.val - 1) st) : Inv V c t.val (stC V c t h0 h1 st) := by
  obtain ⟨hu, hl, hd⟩ := inv_step V c t h0 st hp
  refine ⟨hu, fun p => ?_, fun p => ?_⟩
  · dsimp only [stC]; rw [sC0_eq]; exact hl p
  · dsimp only [stC]; rw [sC1_eq]; exact hd p

/-- The accumulation along the whole grid, by induction on the point. -/
theorem inv_all : ∀ (n : ℕ) (hn : n < cfg1.N), Inv V c n (outsAt1 V c n hn)
  | 0, hn => by
    rw [outsAt1_A V c ⟨0, hn⟩ (Nat.zero_mod _) (by show ¬(0 : ℕ) % 8 = 7; decide)]
    exact inv_A V c ⟨0, hn⟩ _ _
  | n + 1, hn => by
    by_cases h0 : (n + 1) % 8 = 0
    · have h1 : ¬(n + 1) % 8 = 7 := by omega
      rw [outsAt1_A V c ⟨n + 1, hn⟩ h0 h1]
      exact inv_A V c ⟨n + 1, hn⟩ h0 h1
    · by_cases h1 : (n + 1) % 8 = 7
      · rw [outsAt1_C V c ⟨n + 1, hn⟩ h0 h1]
        exact inv_C V c ⟨n + 1, hn⟩ h0 h1 _ (inv_all n _)
      · rw [outsAt1_B V c ⟨n + 1, hn⟩ h0 h1]
        exact inv_B V c ⟨n + 1, hn⟩ h0 h1 _ (inv_all n _)

/-- The output block stored at key tile 7: one row's loss, the exponentials summed over all the columns. -/
theorem out_row (t : Fin cfg1.N) (h7 : t.val % 8 = 7) (p : Fin 1024) :
    (outsAt1 V c t.val t.isLt).1 (ix2 p (0 : Fin 1)) = nllK (S1 V c) (row (t.val / 8) p) := by
  have h0 : ¬t.val % 8 = 0 := by omega
  have hN : t.val < 64 := lt_of_lt_of_eq t.isLt N_1
  have hp := inv_all V c (t.val - 1) (Nat.lt_of_le_of_lt (Nat.sub_le _ _) t.isLt)
  obtain ⟨hu, hl, hd⟩ := inv_step V c t h0 _ hp
  rw [outsAt1_C V c t h0 h7]
  dsimp only [stC]
  rw [oC2_eq, pay_out, hl p, hd p, h7, if_pos (by omega)]
  unfold nllK
  rw [sum_rows (fun cc => Ideal.exp (S1 V c (row (t.val / 8) p) cc))]
  simp only [zero_eq, zero_add]

end Cert.KernelIdeal.Val

end
-- ==== Proof.KIValue1F.lean ====
/-
  Region 1's output column after the run, from what its flushing points leave in the output block.

  The grid has 64 points, point t = 8 a + b for query tile a and key tile b. The output window's block at point t is
  rows 1024 a … 1024 a + 1023 of the [8192, 1] column, and it is written back exactly at the last key tile, b = 7. If
  at every such point the block holds, at row p, the value g (1024 a + p) of one function g of the global row, then the
  column ends holding g: row r is covered by the point 8 (r / 1024) + 7.
-/
import proofs.«170083_j38439957299344_2_alg».proof.Proof.KIRegion1
import proofs.«170083_j38439957299344_2_alg».proof.Proof.Spec
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The output column of region 1 as a function of the global row. -/
def G1 (c : Dev nD) (g : Fin 8192 → EReal) : Buf (Elt Ideal) ((c : Thread nD τ).loc main_v1) :=
  fun i => g (i 0)

/-- The printed index map of the output window over the 64 grid points: point t's block is block (t / 8, 0). -/
theorem idx_facts1 : ∀ t : Fin cfg1.N, win1_2.index t (0 : Fin 2) = t.val / 8 ∧ win1_2.index t (1 : Fin 2) = 0 :=
  (by decide +kernel : ∀ t : Fin grid1.N, _)

/-- What a flushing point t writes back is block t of G1 c g, when the block holds g of the global row. -/
theorem flushed1_eq (c : Dev nD) (g : Fin 8192 → EReal)
    (hfl : ∀ (t : Fin cfg1.N) (h7 : t.val % 8 = 7) (p : Fin 1024) (r : Fin 8192), r.val = 1024 * (t.val / 8) + p.val →
      (outsAt1 (F := Ideal) V c t.val t.isLt).1 (ix2 p (0 : Fin 1)) = g r)
    (t : Fin cfg1.N) (hf : (cfg1.win 2).flush t = true) :
    (dat1 (F := Ideal) V c).flushed 2 t = ((cfg1.win 2).blk t).view.read (Elt Ideal) (G1 c g) := by
  have h7 : t.val % 8 = 7 := (flush1_2 t).mp hf
  show (cfg1.win 2).cut (grid1.coords t) ((dat1 (F := Ideal) V c).after 2 t) = _
  rw [after1_2]
  obtain ⟨e0, e1⟩ := idx_facts1 t
  funext j
  obtain ⟨p, u, rfl⟩ : ∃ (p : Fin 1024) (u : Fin 1), j = ix2 p u := ⟨j 0, j 1, eq_ix2 j⟩
  obtain rfl : u = 0 := Subsingleton.elim _ _
  show (outsAt1 (F := Ideal) V c t.val t.isLt).1 (ix2 p (0 : Fin 1))
    = g ((((cfg1.win 2).blk t).view.emb (ix2 p (0 : Fin 1))) 0)
  refine hfl t h7 p _ ?_
  show win1_2.index t (0 : Fin 2) * 1024 + 1 * p.val = 1024 * (t.val / 8) + p.val
  omega

/-- An index of the output column is in point t's block iff each coordinate is in the block's range on its axis. -/
theorem mem_blk1 (t : Fin cfg1.N) (i : S8192x1.Idx) :
    i ∈ ((cfg1.win 2).blk t).view.set ↔ ∀ a : Fin 2, win1_2.index t a * S1024x1.size a ≤ (i a).val
      ∧ (i a).val < win1_2.index t a * S1024x1.size a + S1024x1.size a := by
  show i ∈ ((View.whole main_v1).slice (win1_2.rect t)).set ↔ _
  rw [View.set_slice_whole, Rect.mem_set_unit]
  exact Iff.rfl

/-- Every index of the output column is in some flushing point's block: row r is in the block of point 8 (r / 1024) + 7. -/
theorem cover1 (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  have hN : cfg1.N = 64 := N_1
  have hlt : 8 * ((i 0).val / 1024) + 7 < cfg1.N := by rw [hN]; omega
  refine ⟨⟨8 * ((i 0).val / 1024) + 7, hlt⟩, (flush1_2 _).mpr (by show (8 * ((i 0).val / 1024) + 7) % 8 = 7; omega), ?_⟩
  rw [mem_blk1]
  obtain ⟨e0, e1⟩ := idx_facts1 ⟨8 * ((i 0).val / 1024) + 7, hlt⟩
  intro a
  match a with
  | ⟨0, _⟩ =>
    show win1_2.index _ (0 : Fin 2) * 1024 ≤ (i 0).val ∧ (i 0).val < win1_2.index _ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_2.index _ (1 : Fin 2) * 1 ≤ (i 1).val ∧ (i 1).val < win1_2.index _ (1 : Fin 2) * 1 + 1
    rw [e1]; omega

/-- The output column of region 1 after the run is g of the global row, when every flushing point's block holds it
    (the row given as any number equal to 1024 (t / 8) + p). -/
theorem final1_of' (c : Dev nD) (g : Fin 8192 → EReal)
    (hfl : ∀ (t : Fin cfg1.N) (h7 : t.val % 8 = 7) (p : Fin 1024) (r : Fin 8192), r.val = 1024 * (t.val / 8) + p.val →
      (outsAt1 (F := Ideal) V c t.val t.isLt).1 (ix2 p (0 : Fin 1)) = g r) :
    (dat1 (F := Ideal) V c).arrAt 2 cfg1.N = G1 c g :=
  (dat1 (F := Ideal) V c).arrAt_eq_of_cover 2 (G1 c g) (fun t hf => flushed1_eq V c g hfl t hf) cover1

/-- The same, the row spelt as (1024 (t / 8) + p) mod 8192. -/
theorem final1_of (c : Dev nD) (g : Fin 8192 → EReal)
    (hfl : ∀ (t : Fin cfg1.N) (h7 : t.val % 8 = 7) (p : Fin 1024),
      (outsAt1 (F := Ideal) V c t.val t.isLt).1 (ix2 p (0 : Fin 1))
        = g ⟨(1024 * (t.val / 8) + p.val) % 8192, Nat.mod_lt _ (by decide)⟩) :
    (dat1 (F := Ideal) V c).arrAt 2 cfg1.N = G1 c g :=
  final1_of' V c g fun t h7 p r hr => by
    have ht : t.val < 64 := by have h := t.isLt; have hN : cfg1.N = 64 := N_1; omega
    have hp : p.val < 1024 := p.isLt
    have hr' : r = ⟨(1024 * (t.val / 8) + p.val) % 8192, Nat.mod_lt _ (by decide)⟩ :=
      Fin.ext (by show r.val = (1024 * (t.val / 8) + p.val) % 8192; omega)
    rw [hr']
    exact hfl t h7 p

end Cert.KernelIdeal.Val

end
-- ==== Proof.KIValueT.lean ====
/-
  The host operations after the two regions: the sum of the [8192, 1] column of row losses from the zero word, divided
  by the word 8192 — the mean over the rows.
-/
import proofs.«170083_j38439957299344_2_alg».proof.Proof.Gen.KernelIdeal
import proofs.«170083_j38439957299344_2_alg».proof.Proof.Spec
import Idealize.ShloMosaic.Lib.ValueIdx
import Idealize.ShloMosaic.PureOps.Ideal.Laws

noncomputable section

namespace Cert.KernelIdeal.Val

open Idealize.ShloMosaic Idealize.ShloMosaic.ValueIdx
open Cert.KernelIdeal Cert.KernelIdeal.Gen Cert.Spec

/-- The sum over all entries of a column from the zero word, divided by the row count, read at the one index. -/
theorem tail_apply (A : FVec Ideal S8192x1 .f32) (j : S_.Idx) :
    Host.divf (F := Ideal) (Host.reduceAdd (F := Ideal) A (constant (F := Ideal) S_ .f32 0x00000000#32)
        Facts₀.reducesTo_S8192x1_S_d0_1 Facts₀.h_S_) (constant (F := Ideal) S_ .f32 0x46000000#32) j
      = Ideal.div (zero + ∑ r : Fin 8192, A (ix2 r (0 : Fin 1))) cnt := by
  unfold Host.divf Host.reduceAdd
  simp only [Ideal.hostDivf_def, Ideal.hostReduceAdd_def]
  rw [Ideal.hostReduceAdd_total _ (fun b => b.elim0), sum_idx2]
  simp only [constant, Ideal.ofBits_def, Fin.sum_univ_one]
  rfl

end Cert.KernelIdeal.Val

end
-- ==== Proof.KIValue.lean ====
/-
  The idealized kernel's result as a function of its two argument arrays.

  Region 0 leaves in its output array the rows of the second argument scaled to unit length; region 1 reads the first
  argument and that array, and leaves one loss per row; the host's last operations take the mean. Composed, the result
  is the mean over rows r of 0 − (s r r − log ∑_c exp (s r c)) for the cosine logits s of the two arguments.
-/
import proofs.«170083_j38439957299344_2_alg».proof.Proof.KIRun
import proofs.«170083_j38439957299344_2_alg».proof.Proof.KIValue0
import proofs.«170083_j38439957299344_2_alg».proof.Proof.KIValue1
import proofs.«170083_j38439957299344_2_alg».proof.Proof.KIValue1F
import proofs.«170083_j38439957299344_2_alg».proof.Proof.KIValueT
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.Spec

variable (m : (ℓ : Loc nD τ sig) → Buf (Elt Ideal) ℓ) (ρ : Dev nD → PrngReg) (c : Dev nD)

/-- The two argument arrays, entry by entry. -/
def XM : Mat := fun r k => m ((c : Thread nD τ).loc main_arg0) (ix2 r k)
def YM : Mat := fun r k => m ((c : Thread nD τ).loc main_arg1) (ix2 r k)

/-- Region 1 finds the first argument as launched: region 0 does not stage it. -/
theorem Xq_eq : Xq (V1r m ρ) c = XM m c := by
  funext r k
  show V1r m ρ c main_arg0 (ix2 r k) = _
  rw [show V1r m ρ c main_arg0 = m ((c : Thread nD τ).loc main_arg0) from (W1_of_ne m ρ c main_arg0 (by decide)).trans rfl]
  rfl

/-- Region 1 finds, in region 0's output array, the second argument's rows scaled to unit length. -/
theorem Yk_eq : Yk (V1r m ρ) c = fun r k => unit (YM m c) r k := by
  funext r k
  show V1r m ρ c main_v0 (ix2 r k) = _
  rw [show V1r m ρ c main_v0 = G0 (V0r m ρ) c from ((hF0 m ρ c 1).symm.trans (final0 (V0r m ρ) c))]
  rfl

theorem S1_eq : S1 (V1r m ρ) c = logit (XM m c) (YM m c) := by
  funext r cc
  unfold S1 logit
  rw [Xq_eq, Yk_eq]

/-- Region 1 leaves one row loss per row in its output array. -/
theorem v1_eq : V2r m ρ c main_v1 = G1 c (nllK (logit (XM m c) (YM m c))) :=
  (hF1 m ρ c 2).symm.trans (final1_of (V1r m ρ) c (nllK (logit (XM m c) (YM m c))) fun t h7 p =>
    (out_row (V1r m ρ) c t h7 p).trans (by rw [S1_eq]; rfl))

/-- The result buffer after the host's last operations. -/
theorem v3_eq : W3 m ρ c (Proc.devRef .tc main_v3) = fun _ => meanK (logit (XM m c) (YM m c)) := by
  show StableHlo.after hostOps2 (W2 m ρ c) (Proc.devRef .tc main_v3) = _
  after_results
  funext j
  have e : W2 m ρ c (Proc.devRef .tc main_v1) = G1 c (nllK (logit (XM m c) (YM m c))) := v1_eq m ρ c
  rw [e]
  refine (tail_apply _ j).trans ?_
  rfl

/-- The run, read: the result at the mean row loss of the two arguments' cosine logits, the arguments unchanged. -/
theorem run_value : θ_run defs (onTc (τ := τ) (main (F := Ideal))) ⟨m, fun _ => 0, ρ⟩ (fun r => ∀ c : Dev nD,
      r.2.mem ((c.tc : Thread nD τ).loc main_v3) = (fun _ => meanK (logit (XM m c) (YM m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v3 (by decide))).trans (v3_eq m ρ c),
     (h c _ (mem_uc main_arg0 (by decide))).trans (W3_main_arg0 m ρ c),
     (h c _ (mem_uc main_arg1 (by decide))).trans (W3_main_arg1 m ρ c)⟩) (run_all m ρ)

end Cert.KernelIdeal.Val

end
-- ==== Proof.RefRun.lean ====
import proofs.«170083_j38439957299344_2_alg».proof.Proof.RefRunH
import proofs.«170083_j38439957299344_2_alg».proof.Proof.RefReadP
-- ==== Proof.LibRealEntries.lean ====
/-
  Finite sums and products of extended reals that are real numbers.

  An extended real is here called real when it is the coercion of a real number. Real entries are closed under
  products, sums, finite sums and the logistic function; the coercion of a finite sum of reals is the sum of the
  coercions; and a real factor moves across a finite sum of real entries, (∑ᵢ fᵢ) · c = ∑ᵢ fᵢ · c — a step that is
  not a law of the extended reals in general: with ∞ + (−∞) = −∞ there, (∞ + (−∞)) · (−1) = ∞ while
  ∞ · (−1) + (−∞) · (−1) = −∞. Nothing here depends on a program.
-/
import Idealize.ShloMosaic.PureOps.Ideal
import Mathlib.Algebra.BigOperators.Fin

noncomputable section

namespace Cert.RealEntries

open Idealize.ShloMosaic

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The logistic function of a real number is a real number. -/
theorem IsReal.logistic {x : EReal} (hx : IsReal x) : IsReal (Ideal.logistic x) := by
  obtain ⟨a, rfl⟩ := hx
  exact ⟨_, Ideal.logistic_coe a⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => simpa using isReal_zero
  | insert i s hi ih =>
    rw [Finset.sum_insert hi]
    exact (hf i (Finset.mem_insert_self i s)).add (ih fun j hj => hf j (Finset.mem_insert_of_mem hj))

/-- A real factor moves across a finite sum of real numbers. -/
theorem sum_mul_of_isReal {ι : Type*} (s : Finset ι) (f : ι → EReal) (c : EReal) (hf : ∀ i ∈ s, IsReal (f i))
    (hc : IsReal c) : (∑ i ∈ s, f i) * c = ∑ i ∈ s, f i * c := by
  classical
  obtain ⟨b, rfl⟩ := hc
  induction s using Finset.induction_on with
  | empty => simp
  | insert i s hi ih =>
    rw [Finset.sum_insert hi, Finset.sum_insert hi, ← ih fun j hj => hf j (Finset.mem_insert_of_mem hj)]
    obtain ⟨a, ha⟩ := hf i (Finset.mem_insert_self i s)
    obtain ⟨t, ht⟩ := IsReal.sum s f fun j hj => hf j (Finset.mem_insert_of_mem hj)
    rw [ha, ht, ← EReal.coe_add, ← EReal.coe_mul, ← EReal.coe_mul, ← EReal.coe_mul, ← EReal.coe_add, add_mul]

end Cert.RealEntries

end
-- ==== Proof.RefRowConst.lean ====
/-
  The row constant the reference subtracts before it exponentiates: the maximum of the row's logits, taken as the fold
  of max over the row from minus infinity, and the maximum with minus infinity once more. Minus infinity is the bottom of
  the extended reals, so it is absorbed, and over a row of real numbers (8192 of them: the row is not empty) the constant
  is one of the row's entries, hence a real number. Nothing here depends on a program.
-/
import proofs.«170083_j38439957299344_2_alg».proof.Proof.Spec
import proofs.«170083_j38439957299344_2_alg».proof.Proof.LibRealEntries

noncomputable section

namespace Cert.RefValue

open Idealize.ShloMosaic Cert.RealEntries

/-- The row constant: the maximum with minus infinity of the fold of max over row `r` from minus infinity. -/
def rowConst (s : Cert.Spec.Sq) (r : Fin 8192) : EReal :=
  max Cert.Spec.ninf ((Finset.univ : Finset (Fin 8192)).fold max Cert.Spec.ninf fun c => s r c)

/-- The word 0xFF800000 is minus infinity, the bottom of the extended reals. -/
theorem ninf_eq_bot : Cert.Spec.ninf = ⊥ := by
  simp [Cert.Spec.ninf, Ideal.ofBits, Ideal.ieee]

/-- The fold of max from the bottom over a nonempty finite set of real numbers is a real number. -/
theorem isReal_fold_max {ι : Type} (t : Finset ι) (ht : t.Nonempty) (f : ι → EReal) (hf : ∀ i ∈ t, IsReal (f i)) :
    IsReal (t.fold max ⊥ f) := by
  classical
  induction ht using Finset.Nonempty.cons_induction with
  | singleton a =>
    rw [Finset.fold_singleton, max_eq_left bot_le]
    exact hf a (Finset.mem_singleton_self a)
  | cons a t ha ht ih =>
    rw [Finset.fold_cons]
    have h1 : IsReal (f a) := hf a (Finset.mem_cons_self a t)
    have h2 : IsReal (t.fold max ⊥ f) := ih fun i hi => hf i (Finset.mem_cons.mpr (Or.inr hi))
    rcases max_choice (f a) (t.fold max ⊥ f) with h | h <;> rw [h] <;> assumption

/-- Over a row of real numbers the row constant is a real number. -/
theorem rowConst_isReal (s : Cert.Spec.Sq) (hs : ∀ r c, IsReal (s r c)) (r : Fin 8192) : IsReal (rowConst s r) := by
  unfold rowConst
  rw [ninf_eq_bot, max_eq_right bot_le]
  exact isReal_fold_max Finset.univ ⟨⟨0, by decide⟩, Finset.mem_univ _⟩ _ fun c _ => hs r c

end Cert.RefValue

end
-- ==== Proof.RefValueA.lean ====
/-
  The reference's float stages read at an index, in the vocabulary of the specification. With X r k = x (r, k) and
  Y r k = y (r, k) the two argument arrays entry by entry:
    the rows scaled to unit length   u = Spec.unit X,  v = Spec.unit Y   (the same chain of operations twice);
    the logits                       s r c = ∑ₖ u r k · v c k = Spec.logit X Y r c   (v is transposed, then contracted);
    the row constant                 M r = rowConst s r   (a maximum over the row from minus infinity, and the maximum
                                     with minus infinity once more);
    the log-softmax at (r, c)        (s r c − M r) − log (zero + ∑_c' exp (s r c' − M r)).
-/
import proofs.«170083_j38439957299344_2_alg».proof.Proof.RefRun
import proofs.«170083_j38439957299344_2_alg».proof.Proof.RefRowConst
import proofs.«170083_j38439957299344_2_alg».proof.Proof.LibKeepdims

noncomputable section

namespace Cert.RefValue

open Cert.ReferenceIdeal Cert.ReferenceIdeal.Gen Cert.ReferenceIdeal.ReadP Idealize.ShloMosaic Idealize.ShloMosaic.ValueIdx

/-- An argument array of the reference at the ideal values. -/
abbrev Arr : Type := (⟨S8192x1024, .f32⟩ : BufTy).Contents (Elt Ideal)

/-- An argument array as a matrix, entry by entry. -/
abbrev mat (x : Arr) : Cert.Spec.Mat := fun r k => x (ix2 r k)

/-- The first argument's rows scaled to unit length. -/
theorem unit_v7 (x : Arr) (r : Fin 8192) (k : Fin 1024) :
    val_main_v7 (F := Ideal) x (ix2 r k) = Cert.Spec.unit (mat x) r k := by
  have hi : ∀ k' : Fin 1024, idx_main_v1 (idx_main_v2 (idx_main_v6 (ix2 r k))) k' = ix2 r k' := fun k' =>
    funext fun a => Fin.ext (by match a with | ⟨0, _⟩ => rfl | ⟨1, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, hi]
  rfl

/-- The second argument's rows scaled to unit length: the same chain. -/
theorem unit_v15 (y : Arr) (r : Fin 8192) (k : Fin 1024) :
    val_main_v15 (F := Ideal) y (ix2 r k) = Cert.Spec.unit (mat y) r k := by
  have hi : ∀ k' : Fin 1024, idx_main_v9 (idx_main_v10 (idx_main_v14 (ix2 r k))) k' = ix2 r k' := fun k' =>
    funext fun a => Fin.ext (by match a with | ⟨0, _⟩ => rfl | ⟨1, _⟩ => rfl)
  rw [val_main_v15_apply, val_main_v14_apply, val_main_v13_apply, val_main_v11_apply, val_main_v10_apply, val_main_v9_apply,
    val_main_v12_apply, val_main_cst_2_apply, val_main_cst_1_apply]
  simp only [val_main_v8_apply, hi]
  rfl

/-- The logits: row r of u against row c of v. -/
theorem logit_v17 (x y : Arr) (r c : Fin 8192) :
    val_main_v17 (F := Ideal) x y (ix2 r c) = Cert.Spec.logit (mat x) (mat y) r c := by
  rw [val_main_v17_apply]
  show _ = ∑ k : Fin 1024, Cert.Spec.unit (mat x) r k * Cert.Spec.unit (mat y) c k
  refine Finset.sum_congr rfl fun k _ => ?_
  have hl : lidx_main_v17 (ix2 r c) k = ix2 r k :=
    funext fun a => Fin.ext (by match a with | ⟨0, _⟩ => rfl | ⟨1, _⟩ => rfl)
  have hr : idx_main_v16 (ridx_main_v17 (ix2 r c) k) = ix2 c k :=
    funext fun a => Fin.ext (by match a with | ⟨0, _⟩ => rfl | ⟨1, _⟩ => rfl)
  rw [val_main_v16_apply, hl, hr, unit_v7, unit_v15]

/-- The row maximum from minus infinity: the fold of max over the row of logits. -/
theorem rowMax_call0_v0 (x y : Arr) (r : Fin 8192) :
    val_main_call0_v0 (F := Ideal) x y (ix1 r)
      = (Finset.univ : Finset (Fin 8192)).fold max Cert.Spec.ninf fun c => Cert.Spec.logit (mat x) (mat y) r c := by
  have hv : ∀ c : Fin 8192, val_main_v17 (F := Ideal) x y (ix2 r c) = Cert.Spec.logit (mat x) (mat y) r c :=
    fun c => logit_v17 x y r c
  unfold val_main_call0_v0
  generalize val_main_v17 (F := Ideal) x y = v at hv
  have hred : S8192x8192.Reduces [1] S8192 := by decide
  refine (Host.reduce_eq_fold_single (FloatOps.maximumf (F := Ideal) (φ := .f32)) v (val_main_call0_cst (F := Ideal))
    reducesTo_S8192x8192_S8192_d1 hred h_S_ (ix1 r)).trans ?_
  show (Finset.univ : Finset (Fin 8192)).fold max Cert.Spec.ninf (fun k => v (hred.lift (ix1 r) k)) = _
  exact Finset.fold_congr fun (k : Fin 8192) _ => (congrArg v (Cert.Lib.Keepdims.lift_row hred r k)).trans (hv k)

/-- The row constant. -/
theorem rowConst_call0_v2 (x y : Arr) (r : Fin 8192) :
    val_main_call0_v2 (F := Ideal) x y (ix1 r) = rowConst (Cert.Spec.logit (mat x) (mat y)) r := by
  rw [val_main_call0_v2_apply, val_main_call0_v1_apply, val_main_call0_cst_0_apply, rowMax_call0_v0]
  rfl

/-- The logits less the row constant. -/
theorem shifted_call0_v5 (x y : Arr) (r c : Fin 8192) :
    val_main_call0_v5 (F := Ideal) x y (ix2 r c)
      = Cert.Spec.logit (mat x) (mat y) r c - rowConst (Cert.Spec.logit (mat x) (mat y)) r := by
  have hi : idx_main_call0_v3 (idx_main_call0_v4 (ix2 r c)) = ix1 r :=
    funext fun a => Fin.ext (by match a with | ⟨0, _⟩ => rfl)
  rw [val_main_call0_v5_apply, val_main_call0_v4_apply, val_main_call0_v3_apply, hi, logit_v17, rowConst_call0_v2]
  rfl

/-- The log-softmax at (r, c). -/
theorem lsm_v18 (x y : Arr) (r c : Fin 8192) :
    val_main_v18 (F := Ideal) x y (ix2 r c)
      = (Cert.Spec.logit (mat x) (mat y) r c - rowConst (Cert.Spec.logit (mat x) (mat y)) r)
        - Ideal.log (Cert.Spec.zero + ∑ c' : Fin 8192,
            Ideal.exp (Cert.Spec.logit (mat x) (mat y) r c' - rowConst (Cert.Spec.logit (mat x) (mat y)) r)) := by
  have hi : ∀ c' : Fin 8192, idx_main_call0_v7 (idx_main_call0_v8 (idx_main_call0_v10 (ix2 r c))) c' = ix2 r c' := fun c' =>
    funext fun a => Fin.ext (by match a with | ⟨0, _⟩ => rfl | ⟨1, _⟩ => rfl)
  rw [val_main_v18_apply, shifted_call0_v5, val_main_call0_v10_apply, val_main_call0_v9_apply, val_main_call0_v8_apply,
    val_main_call0_v7_apply, val_main_call0_cst_1_apply]
  simp only [val_main_call0_v6_apply, hi, shifted_call0_v5]
  rfl

end Cert.RefValue

end
-- ==== Proof.RefGather.lean ====
/-
  A gather that takes the diagonal of a square array. Both axes of the [8192, 8192] operand are collapsed and each result
  entry r has a start index of two words, (idx[r, 0], idx[r, 1]), read as signed integers and clamped into [0, 8191].
  When row r of the start indices holds the word r twice (r below 8192: read signed it is r, and the clamp leaves it),
  the result at r is the operand at (r, r). Also the two facts about such words: read signed they are themselves, and
  they are not negative.
-/
import proofs.«170083_j38439957299344_2_alg».proof.Proof.Gen.ReferenceIdeal
import Idealize.ShloMosaic.Lib.ValueIdx

noncomputable section

namespace Cert.RefValue

open Cert.ReferenceIdeal Cert.ReferenceIdeal.Gen Idealize.ShloMosaic Idealize.ShloMosaic.ValueIdx

/-- A 32-bit word below 8192, read as a signed integer, is the number itself. -/
theorem toInt_ofNat_lt (n : Nat) (hn : n < 8192) : (BitVec.ofNat 32 n).toInt = (n : Int) := by
  have h : (BitVec.ofNat 32 n).toNat = n := by rw [BitVec.toNat_ofNat]; exact Nat.mod_eq_of_lt (by omega)
  rw [BitVec.toInt_eq_toNat_of_lt (by rw [h]; omega), h]

/-- A word below 8192 is not negative: the signed comparison with zero is false. -/
theorem slt_zero_ofNat_lt (n : Nat) (hn : n < 8192) : IntOp.cmpi .slt (BitVec.ofNat 32 n) 0#32 = 0#1 := by
  refine eq_zero_of_ne_one fun h => ?_
  have h' := IntOp.cmpi_slt.mp h
  rw [toInt_ofNat_lt n hn] at h'
  have h0 : (0#32 : BitVec 32).toInt = 0 := by decide
  rw [h0] at h'
  omega

/-- A start index below 8192, read signed and clamped into [0, 8191], is itself. -/
theorem clamp_ofNat_lt (n : Nat) (hn : n < 8192) : min (BitVec.ofNat 32 n).toInt.toNat (8192 - 1) = n := by
  rw [toInt_ofNat_lt n hn, Int.toNat_natCast]
  omega

/-- The operand coordinate the gather reads on axis 0 for result entry r, when the start index's first word is r. -/
theorem gather_coord0 (idx : IVec S8192x2 32) (r : Fin 8192) (h0 : idx (ix2 r (0 : Fin 2)) = BitVec.ofNat 32 r.val) :
    gather_S8192x8192_S8192x2_S8192_n_01_n_n_01_1_11.start (ix1 r) idx (0 : Fin 2)
      + gather_S8192x8192_S8192x2_S8192_n_01_n_n_01_1_11.batchCoord (ix1 r) (0 : Fin 2)
      + gather_S8192x8192_S8192x2_S8192_n_01_n_n_01_1_11.offCoord (ix1 r) (0 : Fin 2) = r.val := by
  rw [GatherDims.batchCoord_eq_zero _ _ _ List.not_mem_nil,
    GatherDims.offCoord_eq_zero _ _ _ (fun h => ((GatherDims.mem_sKept _ _).mp h).1 (by decide))]
  unfold GatherDims.start
  rw [dif_pos (show (0 : Fin 2) ∈ gather_S8192x8192_S8192x2_S8192_n_01_n_n_01_1_11.startIndexMap by decide)]
  have hsi : gather_S8192x8192_S8192x2_S8192_n_01_n_n_01_1_11.siIdx (ix1 r)
      ⟨List.idxOf (0 : Fin 2) gather_S8192x8192_S8192x2_S8192_n_01_n_n_01_1_11.startIndexMap,
        List.idxOf_lt_length_iff.2 (by decide)⟩ = ix2 r (0 : Fin 2) := by
    funext b; refine Fin.ext ?_
    match b with
    | ⟨0, _⟩ => rfl
    | ⟨1, _⟩ => rfl
  rw [hsi, h0]
  show min (BitVec.ofNat 32 r.val).toInt.toNat (8192 - 1) + 0 + 0 = r.val
  rw [clamp_ofNat_lt r.val r.isLt]
  rfl

/-- The operand coordinate the gather reads on axis 1 for result entry r, when the start index's second word is r. -/
theorem gather_coord1 (idx : IVec S8192x2 32) (r : Fin 8192) (h1 : idx (ix2 r (1 : Fin 2)) = BitVec.ofNat 32 r.val) :
    gather_S8192x8192_S8192x2_S8192_n_01_n_n_01_1_11.start (ix1 r) idx (1 : Fin 2)
      + gather_S8192x8192_S8192x2_S8192_n_01_n_n_01_1_11.batchCoord (ix1 r) (1 : Fin 2)
      + gather_S8192x8192_S8192x2_S8192_n_01_n_n_01_1_11.offCoord (ix1 r) (1 : Fin 2) = r.val := by
  rw [GatherDims.batchCoord_eq_zero _ _ _ List.not_mem_nil,
    GatherDims.offCoord_eq_zero _ _ _ (fun h => ((GatherDims.mem_sKept _ _).mp h).1 (by decide))]
  unfold GatherDims.start
  rw [dif_pos (show (1 : Fin 2) ∈ gather_S8192x8192_S8192x2_S8192_n_01_n_n_01_1_11.startIndexMap by decide)]
  have hsi : gather_S8192x8192_S8192x2_S8192_n_01_n_n_01_1_11.siIdx (ix1 r)
      ⟨List.idxOf (1 : Fin 2) gather_S8192x8192_S8192x2_S8192_n_01_n_n_01_1_11.startIndexMap,
        List.idxOf_lt_length_iff.2 (by decide)⟩ = ix2 r (1 : Fin 2) := by
    funext b; refine Fin.ext ?_
    match b with
    | ⟨0, _⟩ => rfl
    | ⟨1, _⟩ => rfl
  rw [hsi, h1]
  show min (BitVec.ofNat 32 r.val).toInt.toNat (8192 - 1) + 0 + 0 = r.val
  rw [clamp_ofNat_lt r.val r.isLt]
  rfl

/-- The gather with both axes collapsed and a start index (idx[r, 0], idx[r, 1]) per result entry, at start indices
    whose row r holds the word r twice: the result at r is the operand at (r, r). -/
theorem gather_diag {α : Type} (v : S8192x8192.Idx → α) (idx : IVec S8192x2 32) (r : Fin 8192)
    (h0 : idx (ix2 r (0 : Fin 2)) = BitVec.ofNat 32 r.val) (h1 : idx (ix2 r (1 : Fin 2)) = BitVec.ofNat 32 r.val) :
    Host.gather gather_S8192x8192_S8192x2_S8192_n_01_n_n_01_1_11 v idx (ix1 r) = v (ix2 r r) := by
  unfold Host.gather
  refine congrArg v (funext fun a => Fin.ext ?_)
  match a with
  | ⟨0, _⟩ => exact gather_coord0 idx r h0
  | ⟨1, _⟩ => exact gather_coord1 idx r h1

end Cert.RefValue

end
-- ==== Proof.RefValueG.lean ====
/-
  The diagonal, taken by a gather. The reference reads entry (r, r) of the square array of log-softmax values by a
  gather whose start indices are an [8192, 2] array of words: column 0 and column 1 each hold, at row r, the word r
  (an iota; the program adds 8192 to a negative index, and no index here is negative, so the select keeps the iota),
  the two columns laid side by side. So the gathered vector at r is the square array at (r, r).
-/
import proofs.«170083_j38439957299344_2_alg».proof.Proof.RefRun
import proofs.«170083_j38439957299344_2_alg».proof.Proof.RefGather

noncomputable section

namespace Cert.RefValue

open Cert.ReferenceIdeal Cert.ReferenceIdeal.Gen Cert.ReferenceIdeal.ReadP Idealize.ShloMosaic Idealize.ShloMosaic.ValueIdx

/-- The first index word at row r is r. -/
theorem word_v25 (r : Fin 8192) : val_main_v25 (F := Ideal) (ix1 r) = BitVec.ofNat 32 r.val := by
  rw [val_main_v25_apply, val_main_v22_apply, val_main_v19_apply, val_main_v21_apply, val_main_c_apply]
  show Scalar.select (IntOp.cmpi .slt (BitVec.ofNat 32 r.val) 0#32) _ (BitVec.ofNat 32 r.val) = _
  rw [slt_zero_ofNat_lt r.val r.isLt, select_zero]

/-- The second index word at row r is r. -/
theorem word_v30 (r : Fin 8192) : val_main_v30 (F := Ideal) (ix1 r) = BitVec.ofNat 32 r.val := by
  rw [val_main_v30_apply, val_main_v27_apply, val_main_v20_apply, val_main_v26_apply, val_main_c_4_apply]
  show Scalar.select (IntOp.cmpi .slt (BitVec.ofNat 32 r.val) 0#32) _ (BitVec.ofNat 32 r.val) = _
  rw [slt_zero_ofNat_lt r.val r.isLt, select_zero]

/-- The first column of start indices at row r. -/
theorem word_v31 (r : Fin 8192) : val_main_v31 (F := Ideal) (ix2 r (0 : Fin 1)) = BitVec.ofNat 32 r.val := by
  have hi : idx_main_v31 (ix2 r (0 : Fin 1)) = ix1 r := funext fun a => Fin.ext (by match a with | ⟨0, _⟩ => rfl)
  rw [val_main_v31_apply, hi, word_v25]

/-- The second column of start indices at row r. -/
theorem word_v32 (r : Fin 8192) : val_main_v32 (F := Ideal) (ix2 r (0 : Fin 1)) = BitVec.ofNat 32 r.val := by
  have hi : idx_main_v32 (ix2 r (0 : Fin 1)) = ix1 r := funext fun a => Fin.ext (by match a with | ⟨0, _⟩ => rfl)
  rw [val_main_v32_apply, hi, word_v30]

/-- The start indices at (r, 0): the first column's word. -/
theorem start_v33_0 (r : Fin 8192) : val_main_v33 (F := Ideal) (ix2 r (0 : Fin 2)) = BitVec.ofNat 32 r.val := by
  have ha := word_v31 r
  unfold val_main_v33
  generalize val_main_v31 (F := Ideal) = a at ha
  generalize val_main_v32 (F := Ideal) = b
  refine (concatenate_pair_apply_left _ a b concatenates_S8192x1_S8192x1_S8192x2_d1 (ix2 r (0 : Fin 2)) rfl
    (ix2 r (0 : Fin 1)) fun d => ?_).trans ha
  match d with
  | ⟨0, _⟩ => rfl
  | ⟨1, _⟩ => rfl

/-- The start indices at (r, 1): the second column's word. -/
theorem start_v33_1 (r : Fin 8192) : val_main_v33 (F := Ideal) (ix2 r (1 : Fin 2)) = BitVec.ofNat 32 r.val := by
  have hb := word_v32 r
  unfold val_main_v33
  generalize val_main_v31 (F := Ideal) = a
  generalize val_main_v32 (F := Ideal) = b at hb
  refine (concatenate_pair_apply_right _ a b concatenates_S8192x1_S8192x1_S8192x2_d1 (ix2 r (1 : Fin 2)) rfl rfl
    (ix2 r (0 : Fin 1)) (fun d hd => ?_) rfl).trans hb
  match d with
  | ⟨0, _⟩ => rfl
  | ⟨1, _⟩ => exact absurd rfl hd

/-- The gathered vector at r is the log-softmax array at (r, r). -/
theorem diag_v34 (x y : (⟨S8192x1024, .f32⟩ : BufTy).Contents (Elt Ideal)) (r : Fin 8192) :
    val_main_v34 (F := Ideal) x y (ix1 r) = val_main_v18 (F := Ideal) x y (ix2 r r) := by
  have h0 := start_v33_0 r
  have h1 := start_v33_1 r
  unfold val_main_v34
  generalize val_main_v18 (F := Ideal) x y = v
  generalize val_main_v33 (F := Ideal) = idx at h0 h1
  exact gather_diag v idx r h0 h1

end Cert.RefValue

end
-- ==== Proof.RefValue.lean ====
/-
  The reference's result in the vocabulary of the specification, and its run. The result is minus the quotient by the
  row count of zero plus the sum, over the rows r, of the gathered diagonal entry of the log-softmax array: Spec.meanR of
  the logits with the row constant rowConst. Every weakly fair execution of the reference ends with its result at that
  value and its arguments unchanged; in particular it terminates without fault with the arguments unchanged (the frame).
-/
import proofs.«170083_j38439957299344_2_alg».proof.Defs
import proofs.«170083_j38439957299344_2_alg».proof.Proof.Gen.Pre_finite_inputs
import proofs.«170083_j38439957299344_2_alg».proof.Proof.RefValueA
import proofs.«170083_j38439957299344_2_alg».proof.Proof.RefValueG

noncomputable section

namespace Cert.RefValue

open Cert.ReferenceIdeal Cert.ReferenceIdeal.Gen Cert.ReferenceIdeal.ReadP Idealize.ShloMosaic Idealize.ShloMosaic.TcCoe
  Idealize.SL.Sem Idealize.ShloMosaic.ValueIdx

/-- A sum over a vector's indices is the sum over the coordinate. -/
theorem sum_idx1 {M : Type} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    fun i => congrArg f (eq_ix1 i)

/-- The reference's result: minus the mean over the rows of the log-softmax at the diagonal. -/
theorem result_eq (x y : Arr) :
    val_main_v37 (F := Ideal) x y
      = fun _ => Cert.Spec.meanR (Cert.Spec.logit (mat x) (mat y)) (rowConst (Cert.Spec.logit (mat x) (mat y))) := by
  funext i
  rw [val_main_v37_apply, val_main_v36_apply, val_main_v35_apply, val_main_cst_6_apply, val_main_cst_7_apply, sum_idx1]
  simp only [diag_v34, lsm_v18]
  rfl

/-- Every weakly fair execution of the reference ends with the result at that value and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37)
          = (fun _ => Cert.Spec.meanR
              (Cert.Spec.logit (mat (m ((c.tc : Thread nD τ).loc main_arg0))) (mat (m ((c.tc : Thread nD τ).loc main_arg1))))
              (rowConst (Cert.Spec.logit (mat (m ((c.tc : Thread nD τ).loc main_arg0)))
                (mat (m ((c.tc : Thread nD τ).loc main_arg1))))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v37_eq m c).trans (result_eq _ _)), (h c).2⟩)
    (Cert.ReferenceIdeal.ValueH.run (F := Ideal) m ρ)

/-- The reference runs, and its arguments end unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.ValueH.run (F := Ideal) m ρ)

end Cert.RefValue

end
-- ==== Proof.Math.lean ====
/-
  The algebra behind the loss: real entries stay real under every operation the two programs use, the float words
  they spell are the reals one expects, and the two forms of the mean loss agree.

  The law. For a row of real logits σ c and a real row constant μ,
    ∑_c exp (σ c − μ) = (∑_c exp (σ c)) · exp (−μ),
  and the sum is positive (the row is not empty, every term is positive), so
    log ∑_c exp (σ c − μ) = log ∑_c exp (σ c) − μ
  and (σ r − μ) − log ∑_c exp (σ c − μ) = σ r − log ∑_c exp (σ c): the row constant cancels. Every quantity is a real
  number, so the coercions to the extended reals are pushed outwards and the identity is one of real numbers; the mean
  of 0 − a r over the rows is then minus the mean of a r. Nothing here depends on a program.
-/
import proofs.«170083_j38439957299344_2_alg».proof.Proof.Spec
import proofs.«170083_j38439957299344_2_alg».proof.Proof.LibRealEntries
import Idealize.ShloMosaic.PureOps.Ideal.Laws

noncomputable section

namespace Cert.Math

open Idealize.ShloMosaic
open Cert.RealEntries (IsReal)

/-! ### The float words -/

/-- The word for zero is the real number 0. -/
theorem zero_eq : Spec.zero = 0 := Ideal.ofBits_zero_f32

/-- The row count is the real number 8192 = 2 ^ 13. -/
theorem cnt_eq : Spec.cnt = ((8192 : ℝ) : EReal) := by
  unfold Spec.cnt
  simp [Ideal.ofBits, Ideal.ieee, -EReal.coe_mul]; norm_num

/-- The word for minus infinity is ⊥. -/
theorem ninf_eq : Spec.ninf = ⊥ := by
  unfold Spec.ninf
  simp [Ideal.ofBits, Ideal.ieee]

/-- The clip constant is a positive real number. -/
theorem eps_pos : ∃ e : ℝ, 0 < e ∧ Spec.eps = (e : EReal) := by
  unfold Spec.eps
  refine ⟨_, ?_, by simp [Ideal.ofBits, Ideal.ieee, -EReal.coe_mul]; rfl⟩
  positivity

/-! ### Real entries are closed under the programs' operations -/

/-- The exponential of a real number is a real number. -/
theorem isReal_exp {x : EReal} (hx : IsReal x) : IsReal (Ideal.exp x) := by
  obtain ⟨a, rfl⟩ := hx
  exact ⟨Real.exp a, Ideal.exp_coe a⟩

/-- The logarithm of a positive real number is a real number. -/
theorem isReal_log {x : EReal} (hx : IsReal x) (hpos : 0 < x) : IsReal (Ideal.log x) := by
  obtain ⟨a, rfl⟩ := hx
  have ha : 0 < a := by exact_mod_cast hpos
  exact ⟨Real.log a, by rw [Ideal.log_coe, if_neg (not_le.mpr ha)]⟩

/-- A difference of real numbers is a real number. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- Minus a real number is a real number. -/
theorem isReal_neg {x : EReal} (hx : IsReal x) : IsReal (-x) := by
  obtain ⟨a, rfl⟩ := hx
  exact ⟨-a, (EReal.coe_neg a).symm⟩

/-- A real number divided by a nonzero real number is a real number. -/
theorem isReal_div_coe {x : EReal} (hx : IsReal x) {b : ℝ} (hb : b ≠ 0) : IsReal (Ideal.div x (b : EReal)) := by
  obtain ⟨a, rfl⟩ := hx
  rw [Ideal.div_coe hb]
  exact ⟨a * (1 / b), (EReal.coe_mul _ _).symm⟩

/-- A real number divided by a nonzero real number is a real number. -/
theorem isReal_div {x y : EReal} (hx : IsReal x) (hy : IsReal y) (hne : y ≠ 0) : IsReal (Ideal.div x y) := by
  obtain ⟨b, rfl⟩ := hy
  exact isReal_div_coe hx (fun h => hne (by rw [h]; rfl))

/-- The square root of a nonnegative real number is a real number. -/
theorem isReal_sqrt_coe {a : ℝ} (ha : 0 ≤ a) : IsReal (Ideal.sqrt (a : EReal)) :=
  ⟨Real.sqrt a, by rw [Ideal.sqrt_coe, if_neg (not_lt.mpr ha)]⟩

/-- The square root of a nonnegative real number is a real number. -/
theorem isReal_sqrt {x : EReal} (hx : IsReal x) (h0 : 0 ≤ x) : IsReal (Ideal.sqrt x) := by
  obtain ⟨a, rfl⟩ := hx
  exact isReal_sqrt_coe (by exact_mod_cast h0)

/-- The larger of two real numbers is a real number. -/
theorem isReal_max {x y : EReal} (hx : IsReal x) (hy : IsReal y) : IsReal (max x y) := by
  rcases max_choice x y with h | h <;> rw [h] <;> assumption

/-- The maximum of a non-empty family of real numbers, folded from ⊥, is a real number. -/
theorem isReal_fold_max {ι : Type*} (t : Finset ι) (ht : t.Nonempty) (f : ι → EReal) (hf : ∀ i ∈ t, IsReal (f i)) :
    IsReal (t.fold max ⊥ f) := by
  classical
  have key : ∀ t : Finset ι, (∀ i ∈ t, IsReal (f i)) → t = ∅ ∨ IsReal (t.fold max ⊥ f) := by
    intro t
    induction t using Finset.induction_on with
    | empty => exact fun _ => Or.inl rfl
    | insert i s hi ih =>
      intro h
      right
      rw [Finset.fold_insert hi]
      rcases ih (fun j hj => h j (Finset.mem_insert_of_mem hj)) with rfl | hr
      · rw [Finset.fold_empty, max_bot_right]
        exact h i (Finset.mem_insert_self i _)
      · exact isReal_max (h i (Finset.mem_insert_self i _)) hr
  exact (key t hf).resolve_left ht.ne_empty

/-- The word for zero is a real number. -/
theorem isReal_zero_word : IsReal Spec.zero := ⟨0, zero_eq⟩

/-- The row count is a real number. -/
theorem isReal_cnt : IsReal Spec.cnt := ⟨8192, cnt_eq⟩

/-! ### Unit rows and cosine logits of real matrices are real -/

/-- The larger of a real number and a positive real number is a positive real number. -/
theorem max_pos_right {x y : EReal} (hx : IsReal x) {e : ℝ} (hy : y = (e : EReal)) (he : 0 < e) :
    ∃ l : ℝ, 0 < l ∧ max x y = (l : EReal) := by
  obtain ⟨a, rfl⟩ := hx
  subst hy
  rcases le_total a e with h | h
  · exact ⟨e, he, max_eq_right (EReal.coe_le_coe_iff.mpr h)⟩
  · exact ⟨a, lt_of_lt_of_le he h, max_eq_left (EReal.coe_le_coe_iff.mpr h)⟩

/-- A sum of squares of real numbers, the word for zero added in front, is a nonnegative real number. -/
theorem sum_sq_coe {ι : Type*} (t : Finset ι) (f : ι → EReal) (a : ι → ℝ) (hf : ∀ i ∈ t, f i = ((a i : ℝ) : EReal)) :
    Spec.zero + ∑ i ∈ t, f i * f i = ((∑ i ∈ t, a i * a i : ℝ) : EReal) := by
  rw [zero_eq, zero_add, Cert.RealEntries.coe_sum]
  exact Finset.sum_congr rfl fun i hi => by rw [hf i hi, EReal.coe_mul]

/-- The clipped length of a real row is a positive real number. -/
theorem len_pos (x : Spec.Mat) (hx : ∀ r k, IsReal (x r k)) (r : Fin 8192) :
    ∃ l : ℝ, 0 < l ∧ Spec.len x r = (l : EReal) := by
  have hx' : ∀ k, ∃ a : ℝ, x r k = (a : EReal) := hx r
  choose a ha using hx'
  obtain ⟨e, he, hee⟩ := eps_pos
  unfold Spec.len
  rw [sum_sq_coe Finset.univ (x r) a fun k _ => ha k]
  exact max_pos_right (isReal_sqrt_coe (Finset.sum_nonneg fun k _ => mul_self_nonneg (a k))) hee he

/-- The rows of a real matrix scaled to unit length are real. -/
theorem unit_isReal (x : Spec.Mat) (hx : ∀ r k, IsReal (x r k)) : ∀ r k, IsReal (Spec.unit x r k) := by
  intro r k
  obtain ⟨l, hl, hle⟩ := len_pos x hx r
  unfold Spec.unit
  rw [hle]
  exact isReal_div_coe (hx r k) hl.ne'

/-- The cosine logits of two real matrices are real. -/
theorem logit_isReal (x y : Spec.Mat) (hx : ∀ r k, IsReal (x r k)) (hy : ∀ r k, IsReal (y r k)) :
    ∀ r c, IsReal (Spec.logit x y r c) := fun r c =>
  Cert.RealEntries.IsReal.sum Finset.univ _ fun k _ => (unit_isReal x hx r k).mul (unit_isReal y hy c k)

/-! ### Sums of exponentials of real numbers -/

/-- A finite sum of exponentials of real numbers is the real sum of the real exponentials. -/
theorem sum_exp_coe {ι : Type*} (t : Finset ι) (σ : ι → ℝ) :
    ∑ c ∈ t, Ideal.exp ((σ c : ℝ) : EReal) = ((∑ c ∈ t, Real.exp (σ c) : ℝ) : EReal) := by
  rw [Cert.RealEntries.coe_sum]
  exact Finset.sum_congr rfl fun c _ => Ideal.exp_coe (σ c)

/-- Over a non-empty index set the sum of exponentials is positive, so its logarithm is the real logarithm. -/
theorem log_sum_exp_coe {ι : Type*} (t : Finset ι) (ht : t.Nonempty) (σ : ι → ℝ) :
    Ideal.log (∑ c ∈ t, Ideal.exp ((σ c : ℝ) : EReal)) = ((Real.log (∑ c ∈ t, Real.exp (σ c)) : ℝ) : EReal) := by
  rw [sum_exp_coe, Ideal.log_coe, if_neg (not_le.mpr (Finset.sum_pos (fun c _ => Real.exp_pos _) ht))]

/-- A constant subtracted from every logit comes out of the logarithm of the sum of exponentials. -/
theorem real_log_sum_exp_sub {ι : Type*} (t : Finset ι) (ht : t.Nonempty) (σ : ι → ℝ) (μ : ℝ) :
    Real.log (∑ c ∈ t, Real.exp (σ c - μ)) = Real.log (∑ c ∈ t, Real.exp (σ c)) - μ := by
  have hpos : 0 < ∑ c ∈ t, Real.exp (σ c) := Finset.sum_pos (fun c _ => Real.exp_pos _) ht
  have hsum : ∑ c ∈ t, Real.exp (σ c - μ) = (∑ c ∈ t, Real.exp (σ c)) * Real.exp (-μ) := by
    rw [Finset.sum_mul]
    exact Finset.sum_congr rfl fun c _ => by rw [sub_eq_add_neg, Real.exp_add]
  rw [hsum, Real.log_mul hpos.ne' (Real.exp_pos _).ne', Real.log_exp]
  ring

/-! ### The two row losses as real numbers -/

/-- The row loss with the exponentials summed directly, as a real number. -/
theorem nllK_coe (s : Spec.Sq) (σ : Fin 8192 → Fin 8192 → ℝ) (hs : ∀ r c, s r c = ((σ r c : ℝ) : EReal))
    (r : Fin 8192) :
    Spec.nllK s r = ((-(σ r r - Real.log (∑ c : Fin 8192, Real.exp (σ r c))) : ℝ) : EReal) := by
  unfold Spec.nllK
  simp only [hs]
  rw [zero_eq, zero_sub, log_sum_exp_coe Finset.univ Finset.univ_nonempty (σ r), ← EReal.coe_sub, ← EReal.coe_neg]

/-- The row's log-softmax at the diagonal with a row constant subtracted first, as a real number: the constant
    cancels. -/
theorem lsmR_coe (s : Spec.Sq) (M : Fin 8192 → EReal) (σ : Fin 8192 → Fin 8192 → ℝ) (μ : Fin 8192 → ℝ)
    (hs : ∀ r c, s r c = ((σ r c : ℝ) : EReal)) (hM : ∀ r, M r = ((μ r : ℝ) : EReal)) (r : Fin 8192) :
    Spec.lsmR s M r = ((σ r r - Real.log (∑ c : Fin 8192, Real.exp (σ r c)) : ℝ) : EReal) := by
  unfold Spec.lsmR
  simp only [hs, hM, zero_eq, zero_add, ← EReal.coe_sub]
  rw [log_sum_exp_coe Finset.univ Finset.univ_nonempty (fun c => σ r c - μ r),
    real_log_sum_exp_sub Finset.univ Finset.univ_nonempty (σ r) (μ r), ← EReal.coe_sub]
  congr 1
  ring

/-! ### The mean -/

/-- The mean of real row values: the sum times 1/8192, a real number. -/
theorem mean_coe {ι : Type*} (t : Finset ι) (f : ι → EReal) (a : ι → ℝ) (hf : ∀ i ∈ t, f i = ((a i : ℝ) : EReal)) :
    Ideal.div (Spec.zero + ∑ i ∈ t, f i) Spec.cnt = (((∑ i ∈ t, a i) * (1 / 8192) : ℝ) : EReal) := by
  rw [zero_eq, zero_add, cnt_eq, Ideal.div_coe (by norm_num : (8192 : ℝ) ≠ 0), Finset.sum_congr rfl hf,
    ← Cert.RealEntries.coe_sum, ← EReal.coe_mul]

/-- THE LAW: for real logits and real row constants the two forms of the mean loss agree. -/
theorem meanK_eq_meanR (s : Spec.Sq) (M : Fin 8192 → EReal) (hs : ∀ r c, IsReal (s r c)) (hM : ∀ r, IsReal (M r)) :
    Spec.meanK s = Spec.meanR s M := by
  have hs' : ∀ r c, ∃ a : ℝ, s r c = (a : EReal) := hs
  have hM' : ∀ r, ∃ a : ℝ, M r = (a : EReal) := hM
  choose σ hσ using hs'
  choose μ hμ using hM'
  unfold Spec.meanK Spec.meanR
  rw [mean_coe Finset.univ _ _ (fun r _ => nllK_coe s σ hσ r),
    mean_coe Finset.univ _ _ (fun r _ => lsmR_coe s M σ μ hσ hμ r), ← EReal.coe_neg]
  congr 1
  rw [← neg_mul, ← Finset.sum_neg_distrib]

end Cert.Math

end
-- ==== Proof.Finite.lean ====
/-
  From the precondition to real entries. The precondition says, of each of the two input matrices, that every entry's
  absolute value is below plus infinity, and takes the conjunction over all entries and over the two matrices. At the
  extended reals the absolute value of x is max x (−x); it is below ⊤ exactly when x is neither ⊤ nor ⊥, that is,
  when x is a real number.
-/
import proofs.«170083_j38439957299344_2_alg».proof.Pre_finite_inputs
import proofs.«170083_j38439957299344_2_alg».proof.Proof.LibRealEntries
import Idealize.ShloMosaic.Lib.ReduceAll
import Idealize.ShloMosaic.PureOps.Ideal.Laws

noncomputable section

namespace Cert.Finite

open Idealize.ShloMosaic
open Cert.RealEntries (IsReal)
open Cert.Pre_finite_inputs

/-- The result of a reduction over every axis has one index. -/
instance : Subsingleton S_.Idx := ⟨fun a b => funext fun d => d.elim0⟩

/-- An extended real whose absolute value compares below the word for plus infinity is a real number. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe a => exact ⟨a, rfl⟩
  | top => simp [Ideal.cmp] at h

/-- One matrix: if the conjunction over all entries of "absolute value below plus infinity" is true, every entry is a
    real number. -/
theorem real_of_all [Facts] (a : FVec Ideal S8192x1024 .f32) (init : IVec S_ 1) (j : S_.Idx)
    (h : Host.reduce IntOp.andi
        (cmpf .olt (Host.absf a)
          (broadcastInDim S8192x1024 ![] Facts.bcast_S_S8192x1024 (constant (F := Ideal) S_ .f32 0x7F800000#32)))
        init Facts.reducesTo_S8192x1024_S_d0_1 Facts.h_S_ j = 1#1) :
    ∀ i, IsReal (a i) := fun i =>
  isReal_of_abs_lt_inf (a i) (Host.reduce_andi_all _ init Facts.reducesTo_S8192x1024_S_d0_1 Facts.h_S_ j h i)

/-- The precondition gives: every entry of both input matrices is a real number. -/
theorem real_of_pre [Facts] (a b : FVec Ideal S8192x1024 .f32)
    (h : fn (F := Ideal) a b = fun _ => 1#1) : (∀ i, IsReal (a i)) ∧ (∀ i, IsReal (b i)) := by
  have h0 := congrFun h (fun d => d.elim0)
  dsimp only [fn] at h0
  obtain ⟨ha, hb⟩ := IntOp.andi_eq_one.1 h0
  exact ⟨real_of_all a _ _ ha, real_of_all b _ _ hb⟩

end Cert.Finite

end
-- ==== Proof.lean ====
/-
  The certificate of the fused cosine contrastive loss kernel against its reference.

  Both programs compute, for two matrices of 8192 rows, the mean over rows r of −log softmax(s r ·) at the diagonal
  entry, s the cosine logits of the rows. The kernel sums exp (s r c) over the columns directly, tile by tile; the
  reference subtracts the row maximum first. For finite inputs every logit is a real number, and then the two are
  the same real number row by row (Math.lean); this is where the precondition is used. The three frames are the
  programs' runs with the result dropped; the idealization rewrote nothing.
-/
import proofs.«170083_j38439957299344_2_alg».proof.Defs
import proofs.«170083_j38439957299344_2_alg».proof.Proof.Gen.Kernel
import proofs.«170083_j38439957299344_2_alg».proof.Proof.Gen.KernelIdeal
import proofs.«170083_j38439957299344_2_alg».proof.Proof.Gen.ReferenceIdeal
import proofs.«170083_j38439957299344_2_alg».proof.Proof.Gen.Pre_finite_inputs
import proofs.«170083_j38439957299344_2_alg».proof.Proof.KRun
import proofs.«170083_j38439957299344_2_alg».proof.Proof.KIValue
import proofs.«170083_j38439957299344_2_alg».proof.Proof.RefValue
import proofs.«170083_j38439957299344_2_alg».proof.Proof.Math
import proofs.«170083_j38439957299344_2_alg».proof.Proof.Finite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- Under the precondition every entry of both arguments is a real number, so every cosine logit is; the reference's
    row constant is then real too, and the two forms of the mean loss agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.meanK (Cert.Spec.logit (Cert.KernelIdeal.Val.XM m c) (Cert.KernelIdeal.Val.YM m c)),
    Cert.KernelIdeal.Val.run_value m ρ, ?_⟩
  refine (θ_run Cert.ReferenceIdeal.defs _ _).mono (fun r h c => ⟨(h c).1.trans ?_, (h c).2⟩) (Cert.RefValue.run_spec m' ρ')
  obtain ⟨hx, hy⟩ := Cert.Finite.real_of_pre _ _ (hpre c)
  rw [(hagree c).1, (hagree c).2]
  funext _
  exact (Cert.Math.meanK_eq_meanR _ _ (Cert.Math.logit_isReal _ _ (fun r k => hx _) (fun r k => hy _))
    (Cert.RefValue.rowConst_isReal _ (Cert.Math.logit_isReal _ _ (fun r k => hx _) (fun r k => hy _)))).symm

theorem claim : Cert.Claim :=
  ⟨Cert.Kernel.Gen.facts, Cert.KernelIdeal.Gen.facts, Cert.ReferenceIdeal.Gen.facts, Cert.Pre_finite_inputs.Gen.facts,
    frame_k, frame_ki, Cert.RefValue.frame_ri, trivial, algebraic⟩

end Cert.Proof

end
